-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x262144x2 : Shape := ⟨3, ![2, 262144, 2]⟩
abbrev S128x2 : Shape := ⟨2, ![128, 2]⟩
abbrev S128 : Shape := ⟨1, ![128]⟩
abbrev S128x128 : Shape := ⟨2, ![128, 128]⟩
abbrev S1x128 : Shape := ⟨2, ![1, 128]⟩
abbrev S3x128 : Shape := ⟨2, ![3, 128]⟩
abbrev S1 : Shape := ⟨1, ![1]⟩
abbrev S3 : Shape := ⟨1, ![3]⟩
abbrev S_ : Shape := ⟨0, ![]⟩

class Facts : Prop where
  bcast_S_S2x262144x2 : S_.BroadcastsInDim S2x262144x2 (![] : Fin 0 → Fin S2x262144x2.rank)
  reducesTo_S2x262144x2_S_d0_1_2 : S2x262144x2.ReducesTo [0, 1, 2] S_
  h_S_ : 0 < S_.numel
  bcast_S_S128x2 : S_.BroadcastsInDim S128x2 (![] : Fin 0 → Fin S128x2.rank)
  reducesTo_S128x2_S_d0_1 : S128x2.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S3x128 : S_.BroadcastsInDim S3x128 (![] : Fin 0 → Fin S3x128.rank)
  reducesTo_S3x128_S_d0_1 : S3x128.ReducesTo [0, 1] S_
  bcast_S_S1 : S_.BroadcastsInDim S1 (![] : Fin 0 → Fin S1.rank)
  reducesTo_S1_S_d0 : S1.ReducesTo [0] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S1 .f32) (main_arg12 : FVec F S3 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S1x128 .f32) (main_arg10 : FVec F S3x128 .f32) (main_arg11 : FVec F S1 .f32) (main_arg12 : FVec F S3 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg9
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128 .f32) (main_arg9 : FVec F S1x128 .f32) (main_arg10 : FVec F S3x128 .f32) (main_arg11 : FVec F S1 .f32) (main_arg12 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x262144x2 .f32) (main_arg1 : FVec F S128x2 .f32) (main_arg2 : FVec F S128x2 .f32) (main_arg3 : FVec F S128 .f32) (main_arg4 : FVec F S128 .f32) (main_arg5 : FVec F S128x128 .f32) (main_arg6 : FVec F S128x128 .f32) (main_arg7 : FVec F S128 .f32) (main_arg8 : FVec F S128 .f32) (main_arg9 : FVec F S1x128 .f32) (main_arg10 : FVec F S3x128 .f32) (main_arg11 : FVec F S1 .f32) (main_arg12 : FVec F S3 .f32) : IVec S_ 1 :=
  let main_v0 : FVec F S2x262144x2 .f32 := Host.absf main_arg0
  let main_cst : FVec F S_ .f32 := constant S_ .f32 0x7F800000#32
  let main_v1 : FVec F S2x262144x2 .f32 := broadcastInDim S2x262144x2 ![] bcast_S_S2x262144x2 main_cst
  let main_v2 : IVec S2x262144x2 1 := cmpf .olt main_v0 main_v1
  let main_c : IVec S_ 1 := constantI S_ 1 1#1
  let main_v3 : IVec S_ 1 := (fun x v => Host.reduce IntOp.andi x v reducesTo_S2x262144x2_S_d0_1_2 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S128x2 .f32 := Host.absf main_arg2
  let main_cst_2 : FVec F S_ .f32 := constant S_ .f32 0x7F800000#32
  let main_v10 : FVec F S128x2 .f32 := broadcastInDim S128x2 ![] bcast_S_S128x2 main_cst_2
  let main_v11 : IVec S128x2 1 := cmpf .olt main_v9 main_v10
  let main_c_3 : IVec S_ 1 := constantI S_ 1 1#1
  let main_v12 : IVec S_ 1 := (fun x v => Host.reduce IntOp.andi x v reducesTo_S128x2_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S2x262144x2 : Shape := ⟨3, ![2, 262144, 2]⟩
abbrev S128x2 : Shape := ⟨2, ![128, 2]⟩
abbrev S128 : Shape := ⟨1, ![128]⟩
abbrev S128x128 : Shape := ⟨2, ![128, 128]⟩
abbrev S1x128 : Shape := ⟨2, ![1, 128]⟩
abbrev S3x128 : Shape := ⟨2, ![3, 128]⟩
abbrev S1 : Shape := ⟨1, ![1]⟩
abbrev S3 : Shape := ⟨1, ![3]⟩
abbrev S2x2x262144 : Shape := ⟨3, ![2, 2, 262144]⟩
abbrev S4x262144 : Shape := ⟨2, ![4, 262144]⟩
abbrev S_ : Shape := ⟨0, ![]⟩
abbrev S128x4 : Shape := ⟨2, ![128, 4]⟩
abbrev S256x4 : Shape := ⟨2, ![256, 4]⟩
abbrev S256 : Shape := ⟨1, ![256]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S3x256 : Shape := ⟨2, ![3, 256]⟩
abbrev S4x256 : Shape := ⟨2, ![4, 256]⟩
abbrev S4 : Shape := ⟨1, ![4]⟩
abbrev S4x1 : Shape := ⟨2, ![4, 1]⟩
abbrev S3x262144 : Shape := ⟨2, ![3, 262144]⟩
abbrev S4x8192 : Shape := ⟨2, ![4, 8192]⟩
abbrev S3x8192 : Shape := ⟨2, ![3, 8192]⟩
abbrev S256x8192 : Shape := ⟨2, ![256, 8192]⟩
abbrev S1x8192 : Shape := ⟨2, ![1, 8192]⟩
abbrev S262144x3 : Shape := ⟨2, ![262144, 3]⟩

abbrev nBuf : Space → Nat
  | .hbm => 48
  | .vmem => 10
  | .smem => 0
  | _ => 0

abbrev bufTy : (tb : Table) → Fin (tcTables nBuf tb) → BufTy
  | .hbm, ⟨0, _⟩ => ⟨S2x262144x2, .f32⟩
  | .hbm, ⟨1, _⟩ => ⟨S128x2, .f32⟩
  | .hbm, ⟨2, _⟩ => ⟨S128x2, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S3x128, .f32⟩
  | .hbm, ⟨11, _⟩ => ⟨S1, .f32⟩
  | .hbm, ⟨12, _⟩ => ⟨S3, .f32⟩
  | .hbm, ⟨13, _⟩ => ⟨S2x2x262144, .f32⟩
  | .hbm, ⟨14, _⟩ => ⟨S4x262144, .f32⟩
  | .hbm, ⟨15, _⟩ => ⟨S4x262144, .bf16⟩
  | .hbm, ⟨16, _⟩ => ⟨S_, .f32⟩
  | .hbm, ⟨17, _⟩ => ⟨S128x2, .f32⟩
  | .hbm, ⟨18, _⟩ => ⟨S128x4, .f32⟩
  | .hbm, ⟨19, _⟩ => ⟨S_, .f32⟩
  | .hbm, ⟨20, _⟩ => ⟨S128x2, .f32⟩
  | .hbm, ⟨21, _⟩ => ⟨S128x4, .f32⟩
  | .hbm, ⟨22, _⟩ => ⟨S256x4, .f32⟩
  | .hbm, ⟨23, _⟩ => ⟨S256x4, .bf16⟩
  | .hbm, ⟨24, _⟩ => ⟨S256, .f32⟩
  | .hbm, ⟨25, _⟩ => ⟨S256x1, .f32⟩
  | .hbm, ⟨26, _⟩ => ⟨S_, .f32⟩
  | .hbm, ⟨27, _⟩ => ⟨S128x128, .f32⟩
  | .hbm, ⟨28, _⟩ => ⟨S128x256, .f32⟩
  | .hbm, ⟨29, _⟩ => ⟨S_, .f32⟩
  | .hbm, ⟨30, _⟩ => ⟨S128x128, .f32⟩
  | .hbm, ⟨31, _⟩ => ⟨S128x256, .f32⟩
  | .hbm, ⟨32, _⟩ => ⟨S256x256, .f32⟩
  | .hbm, ⟨33, _⟩ => ⟨S256x256, .bf16⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S1x128, .f32⟩
  | .hbm, ⟨38, _⟩ => ⟨S1x256, .f32⟩
  | .hbm, ⟨39, _⟩ => ⟨S_, .f32⟩
  | .hbm, ⟨40, _⟩ => ⟨S3x128, .f32⟩
  | .hbm, ⟨41, _⟩ => ⟨S3x256, .f32⟩
  | .hbm, ⟨42, _⟩ => ⟨S4x256, .f32⟩
  | .hbm, ⟨43, _⟩ => ⟨S4x256, .bf16⟩
  | .hbm, ⟨44, _⟩ => ⟨S4, .f32⟩
  | .hbm, ⟨45, _⟩ => ⟨S4x1, .f32⟩
  | .hbm, ⟨46, _⟩ => ⟨S3x262144, .f32⟩
  | .hbm, ⟨47, _⟩ => ⟨S262144x3, .f32⟩
  | .local _ .vmem, ⟨0, _⟩ => ⟨S4x8192, .bf16⟩
  | .local _ .vmem, ⟨1, _⟩ => ⟨S4x8192, .bf16⟩
  | .local _ .vmem, ⟨2, _⟩ => ⟨S256x4, .bf16⟩
  | .local _ .vmem, ⟨3, _⟩ => ⟨S256x1, .f32⟩
  | .local _ .vmem, ⟨4, _⟩ => ⟨S256x256, .bf16⟩
  | .local _ .vmem, ⟨5, _⟩ => ⟨S256x1, .f32⟩
  | .local _ .vmem, ⟨6, _⟩ => ⟨S4x256, .bf16⟩
  | .local _ .vmem, ⟨7, _⟩ => ⟨S4x1, .f32⟩
  | .local _ .vmem, ⟨8, _⟩ => ⟨S3x8192, .f32⟩
  | .local _ .vmem, ⟨9, _⟩ => ⟨S3x8192, .f32⟩
  | _, _ => ⟨S2x262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2x262144x2_S2x2x262144_0_2_1 : S2x262144x2.Transposes [0, 2, 1] S2x2x262144
  shapeCasts_S2x2x262144_S4x262144 : S2x2x262144.ShapeCasts S4x262144
  bitsLt_bf16_f32 : FTy.bits .bf16 < FTy.bits .f32
  bcast_S_S128x2 : S_.BroadcastsInDim S128x2 (![] : Fin 0 → Fin S128x2.rank)
  concatenates_S128x2_S128x2_S128x4_d1 : Shape.Concatenates [S128x2, S128x2] S128x4 1
  concatenates_S128x4_S128x4_S256x4_d0 : Shape.Concatenates [S128x4, S128x4] S256x4 0
  concatenates_S128_S128_S256_d0 : Shape.Concatenates [S128, S128] S256 0
  shapeCasts_S256_S256x1 : S256.ShapeCasts S256x1
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  bcast_S_S1x128 : S_.BroadcastsInDim S1x128 (![] : Fin 0 → Fin S1x128.rank)
  concatenates_S1x128_S1x128_S1x256_d1 : Shape.Concatenates [S1x128, S1x128] S1x256 1
  bcast_S_S3x128 : S_.BroadcastsInDim S3x128 (![] : Fin 0 → Fin S3x128.rank)
  concatenates_S3x128_S3x128_S3x256_d1 : Shape.Concatenates [S3x128, S3x128] S3x256 1
  concatenates_S1x256_S3x256_S4x256_d0 : Shape.Concatenates [S1x256, S3x256] S4x256 0
  concatenates_S1_S3_S4_d0 : Shape.Concatenates [S1, S3] S4 0
  shapeCasts_S4_S4x1 : S4.ShapeCasts S4x1
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x8192 : S256x1.Broadcasts S256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x8192 : S4x1.Broadcasts S4x8192
  slices_S4x8192_o0_0_S1x8192 : S4x8192.Slices ![0, 0] S1x8192
  slices_S4x8192_o1_0_S1x8192 : S4x8192.Slices ![1, 0] S1x8192
  slices_S4x8192_o2_0_S1x8192 : S4x8192.Slices ![2, 0] S1x8192
  slices_S4x8192_o3_0_S1x8192 : S4x8192.Slices ![3, 0] S1x8192
  inb_S3x8192_S1x8192_0_0 : ∀ a, (![0, 0] : Fin 2 → Nat) a + S1x8192.size a ≤ S3x8192.size a
  h_S1x8192 : 0 < S1x8192.numel
  inb_S3x8192_S1x8192_1_0 : ∀ a, (![1, 0] : Fin 2 → Nat) a + S1x8192.size a ≤ S3x8192.size a
  inb_S3x8192_S1x8192_2_0 : ∀ a, (![2, 0] : Fin 2 → Nat) a + S1x8192.size a ≤ S3x8192.size a
  transposes_S3x262144_S262144x3_1_0 : S3x262144.Transposes [1, 0] S262144x3
  dot_S256x4_S4x8192_S256x8192_1_0_0_1_n_n_wf : DotDims.WF S256x4 S4x8192 S256x8192 [1] [0] [0] [1] [] []
  dot_S256x256_S256x8192_S256x8192_1_0_0_1_n_n_wf : DotDims.WF S256x256 S256x8192 S256x8192 [1] [0] [0] [1] [] []
  dot_S4x256_S256x8192_S4x8192_1_0_0_1_n_n_wf : DotDims.WF S4x256 S256x8192 S4x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x262144.size a
  hwx0_0 : ∀ i : grid0.Coords, EltTy.bits .bf16 = 32 ∨ (Rect.block (s := S4x262144) S4x8192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S256x4.size a
  hwx0_1 : ∀ i : grid0.Coords, EltTy.bits .bf16 = 32 ∨ (Rect.block (s := S256x4) S256x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .bf16 = 32 ∨ (Rect.block (s := S4x256) S4x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1.size a ≤ S4x1.size a
  hwx0_6 : ∀ i : grid0.Coords, EltTy.bits .f32 = 32 ∨ (Rect.block (s := S4x1) S4x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x8192.size a ≤ S3x262144.size a
  hwx0_7 : ∀ i : grid0.Coords, EltTy.bits .f32 = 32 ∨ (Rect.block (s := S3x262144) S3x8192.size (cc0_transform_7 i) (hinb0_7 i)).WholeWords (EltTy.packing .f32)

variable [Facts₀]

def dot_S256x4_S4x8192_S256x8192_1_0_0_1_n_n : DotDims S256x4 S4x8192 S256x8192 where
  lhsContracting := [1]
  rhsContracting := [0]
  lhsNonContracting := [0]
  rhsNonContracting := [1]
  lhsBatch := []
  rhsBatch := []
  wf := dot_S256x4_S4x8192_S256x8192_1_0_0_1_n_n_wf
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf
def dot_S4x256_S256x8192_S4x8192_1_0_0_1_n_n : DotDims S4x256 S256x8192 S4x8192 where
  lhsContracting := [1]
  rhsContracting := [0]
  lhsNonContracting := [0]
  rhsNonContracting := [1]
  lhsBatch := []
  rhsBatch := []
  wf := dot_S4x256_S256x8192_S4x8192_1_0_0_1_n_n_wf

abbrev win0_0 : Pipeline.Window sig grid0 :=
  Pipeline.Window.ofSpec (Memref.whole main_v2) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S4x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S3x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x262144x2 : Shape := ⟨3, ![2, 262144, 2]⟩
abbrev S128x2 : Shape := ⟨2, ![128, 2]⟩
abbrev S128 : Shape := ⟨1, ![128]⟩
abbrev S128x128 : Shape := ⟨2, ![128, 128]⟩
abbrev S1x128 : Shape := ⟨2, ![1, 128]⟩
abbrev S3x128 : Shape := ⟨2, ![3, 128]⟩
abbrev S1 : Shape := ⟨1, ![1]⟩
abbrev S3 : Shape := ⟨1, ![3]⟩
abbrev S1x262144x2 : Shape := ⟨3, ![1, 262144, 2]⟩
abbrev S262144x2 : Shape := ⟨2, ![262144, 2]⟩
abbrev S2x128 : Shape := ⟨2, ![2, 128]⟩
abbrev S262144x128 : Shape := ⟨2, ![262144, 128]⟩
abbrev S_ : Shape := ⟨0, ![]⟩
abbrev S128x1 : Shape := ⟨2, ![128, 1]⟩
abbrev S262144x1 : Shape := ⟨2, ![262144, 1]⟩
abbrev S1x1 : Shape := ⟨2, ![1, 1]⟩
abbrev S128x3 : Shape := ⟨2, ![128, 3]⟩
abbrev S262144x3 : Shape := ⟨2, ![262144, 3]⟩
abbrev S1x3 : Shape := ⟨2, ![1, 3]⟩
abbrev S262144x1x1 : Shape := ⟨3, ![262144, 1, 1]⟩
abbrev S262144x1x3 : Shape := ⟨3, ![262144, 1, 3]⟩
abbrev S262144 : Shape := ⟨1, ![262144]⟩

abbrev nBuf : Space → Nat
  | .hbm => 82
  | .vmem => 0
  | .smem => 0
  | _ => 0

abbrev bufTy : (tb : Table) → Fin (tcTables nBuf tb) → BufTy
  | .hbm, ⟨0, _⟩ => ⟨S2x262144x2, .f32⟩
  | .hbm, ⟨1, _⟩ => ⟨S128x2, .f32⟩
  | .hbm, ⟨2, _⟩ => ⟨S128x2, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S3x128, .f32⟩
  | .hbm, ⟨11, _⟩ => ⟨S1, .f32⟩
  | .hbm, ⟨12, _⟩ => ⟨S3, .f32⟩
  | .hbm, ⟨13, _⟩ => ⟨S1x262144x2, .f32⟩
  | .hbm, ⟨14, _⟩ => ⟨S262144x2, .f32⟩
  | .hbm, ⟨15, _⟩ => ⟨S1x262144x2, .f32⟩
  | .hbm, ⟨16, _⟩ => ⟨S262144x2, .f32⟩
  | .hbm, ⟨17, _⟩ => ⟨S2x128, .f32⟩
  | .hbm, ⟨18, _⟩ => ⟨S262144x128, .f32⟩
  | .hbm, ⟨19, _⟩ => ⟨S1x128, .f32⟩
  | .hbm, ⟨20, _⟩ => ⟨S262144x128, .f32⟩
  | .hbm, ⟨21, _⟩ => ⟨S262144x128, .f32⟩
  | .hbm, ⟨22, _⟩ => ⟨S2x128, .f32⟩
  | .hbm, ⟨23, _⟩ => ⟨S262144x128, .f32⟩
  | .hbm, ⟨24, _⟩ => ⟨S1x128, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S262144x128, .f32⟩
  | .hbm, ⟨29, _⟩ => ⟨S262144x128, .f32⟩
  | .hbm, ⟨30, _⟩ => ⟨S_, .f32⟩
  | .hbm, ⟨31, _⟩ => ⟨S262144x128, .f32⟩
  | .hbm, ⟨32, _⟩ => ⟨S262144x128, .f32⟩
  | .hbm, ⟨33, _⟩ => ⟨S128x128, .f32⟩
  | .hbm, ⟨34, _⟩ => ⟨S262144x128, .f32⟩
  | .hbm, ⟨35, _⟩ => ⟨S1x128, .f32⟩
  | .hbm, ⟨36, _⟩ => ⟨S262144x128, .f32⟩
  | .hbm, ⟨37, _⟩ => ⟨S262144x128, .f32⟩
  | .hbm, ⟨38, _⟩ => ⟨S128x128, .f32⟩
  | .hbm, ⟨39, _⟩ => ⟨S262144x128, .f32⟩
  | .hbm, ⟨40, _⟩ => ⟨S1x128, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S128x1, .f32⟩
  | .hbm, ⟨50, _⟩ => ⟨S262144x1, .f32⟩
  | .hbm, ⟨51, _⟩ => ⟨S1x1, .f32⟩
  | .hbm, ⟨52, _⟩ => ⟨S262144x1, .f32⟩
  | .hbm, ⟨53, _⟩ => ⟨S262144x1, .f32⟩
  | .hbm, ⟨54, _⟩ => ⟨S128x3, .f32⟩
  | .hbm, ⟨55, _⟩ => ⟨S262144x3, .f32⟩
  | .hbm, ⟨56, _⟩ => ⟨S1x3, .f32⟩
  | .hbm, ⟨57, _⟩ => ⟨S262144x3, .f32⟩
  | .hbm, ⟨58, _⟩ => ⟨S262144x3, .f32⟩
  | .hbm, ⟨59, _⟩ => ⟨S_, .i32⟩
  | .hbm, ⟨60, _⟩ => ⟨S_, .f32⟩
  | .hbm, ⟨61, _⟩ => ⟨S262144x3, .f32⟩
  | .hbm, ⟨62, _⟩ => ⟨S262144x1, .f32⟩
  | .hbm, ⟨63, _⟩ => ⟨S262144x1x1, .f32⟩
  | .hbm, ⟨64, _⟩ => ⟨S262144x1x3, .f32⟩
  | .hbm, ⟨65, _⟩ => ⟨S262144x1x3, .f32⟩
  | .hbm, ⟨66, _⟩ => ⟨S262144x1x3, .f32⟩
  | .hbm, ⟨67, _⟩ => ⟨S262144x3, .f32⟩
  | .hbm, ⟨68, _⟩ => ⟨S_, .f32⟩
  | .hbm, ⟨69, _⟩ => ⟨S262144, .f32⟩
  | .hbm, ⟨70, _⟩ => ⟨S_, .f32⟩
  | .hbm, ⟨71, _⟩ => ⟨S262144, .f32⟩
  | .hbm, ⟨72, _⟩ => ⟨S262144, .f32⟩
  | .hbm, ⟨73, _⟩ => ⟨S262144x1, .f32⟩
  | .hbm, ⟨74, _⟩ => ⟨S262144x3, .f32⟩
  | .hbm, ⟨75, _⟩ => ⟨S262144x3, .f32⟩
  | .hbm, ⟨76, _⟩ => ⟨S262144x3, .f32⟩
  | .hbm, ⟨77, _⟩ => ⟨S_, .f32⟩
  | .hbm, ⟨78, _⟩ => ⟨S262144, .f32⟩
  | .hbm, ⟨79, _⟩ => ⟨S262144x1, .f32⟩
  | .hbm, ⟨80, _⟩ => ⟨S262144x3, .f32⟩
  | .hbm, ⟨81, _⟩ => ⟨S262144x3, .f32⟩
  | _, _ => ⟨S2x262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_v26 : Ref sig .tc := ⟨.hbm, 45, rfl⟩
abbrev main_call3_cst : Ref sig .tc := ⟨.hbm, 46, rfl⟩
abbrev main_call3_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c : Ref sig .tc := ⟨.hbm, 59, rfl⟩
abbrev main_call4_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst : Ref sig .tc := ⟨.hbm, 68, rfl⟩
abbrev main_v45 : Ref sig .tc := ⟨.hbm, 69, rfl⟩
abbrev main_cst_0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]

class Facts₀ : Prop where
  slices_S2x262144x2_S1x262144x2_0_0_0 : S2x262144x2.Slices ![0, 0, 0] S1x262144x2
  shapeCasts_S1x262144x2_S262144x2 : S1x262144x2.ShapeCasts S262144x2
  slices_S2x262144x2_S1x262144x2_1_0_0 : S2x262144x2.Slices ![1, 0, 0] S1x262144x2
  transposes_S128x2_S2x128_1_0 : S128x2.Transposes [1, 0] S2x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  pads_S262144x1_S262144x3_000_020 : S262144x1.Pads (![0, 0] : Fin 2 → Nat) ![0, 2] ![0, 0] S262144x3
  h_S_ : 0 < S_.numel
  slices_S262144x3_S262144x1_0_0 : S262144x3.Slices ![0, 0] S262144x1
  bcast_S262144x1_S262144x1x1_0_1 : S262144x1.BroadcastsInDim S262144x1x1 (![0, 1] : Fin 2 → Fin S262144x1x1.rank)
  bcast_S262144x3_S262144x1x3_0_2 : S262144x3.BroadcastsInDim S262144x1x3 (![0, 2] : Fin 2 → Fin S262144x1x3.rank)
  bcast_S262144x1x1_S262144x1x3_0_1_2 : S262144x1x1.BroadcastsInDim S262144x1x3 (![0, 1, 2] : Fin 3 → Fin S262144x1x3.rank)
  shapeCasts_S262144x1x3_S262144x3 : S262144x1x3.ShapeCasts S262144x3
  reducesTo_S262144x3_S262144_d1 : S262144x3.ReducesTo [1] S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)
  dot_S262144x2_S2x128_S262144x128_1_0_0_1_n_n_wf : DotDims.WF S262144x2 S2x128 S262144x128 [1] [0] [0] [1] [] []
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []
  dot_S262144x128_S128x3_S262144x3_1_0_0_1_n_n_wf : DotDims.WF S262144x128 S128x3 S262144x3 [1] [0] [0] [1] [] []

variable [Facts₀]

def dot_S262144x2_S2x128_S262144x128_1_0_0_1_n_n : DotDims S262144x2 S2x128 S262144x128 where
  lhsContracting := [1]
  rhsContracting := [0]
  lhsNonContracting := [0]
  rhsNonContracting := [1]
  lhsBatch := []
  rhsBatch := []
  wf := dot_S262144x2_S2x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.Spec.lean ====
/-
  The network both programs compute, written once over the extended reals.

  A sample n carries two 2-vectors x[0,n,:] and x[1,n,:].  Each goes through its own three-layer perceptron:
  two hidden layers of 128 rectified units and a linear read-out, of one unit for the first branch and of three
  units for the second.  The read-outs are multiplied (a 1 x 3 Kronecker product) and the three products are
  normalised by a softmax: exp(y_j - max y) / sum_j exp(y_j - max y).
-/
import Idealize.ShloMosaic.Lib.ValueIdx
import Idealize.ShloMosaic.PureOps.Ideal

noncomputable section

namespace Cert.Krone

open Idealize.ShloMosaic Idealize.ShloMosaic.ValueIdx

/-- An array of extended reals of a literal shape. -/
abbrev Arr (s : Shape) : Type := s.Idx → EReal

/-- One rectified unit of a hidden layer: max (sum_k h k * w[o,k] + b[o]) 0. -/
def hid {K : Nat} (h : Fin K → EReal) (w : Arr ⟨2, ![128, K]⟩) (b : Arr ⟨1, ![128]⟩) (o : Fin 128) : EReal :=
  max ((∑ k : Fin K, h k * w (ix2 o k)) + b (ix1 o)) 0

/-- One unit of a linear read-out: sum_k h k * w[j,k] + b[j]. -/
def lin {J : Nat} (h : Fin 128 → EReal) (w : Arr ⟨2, ![J, 128]⟩) (b : Arr ⟨1, ![J]⟩) (j : Fin J) : EReal :=
  (∑ k : Fin 128, h k * w (ix2 j k)) + b (ix1 j)

/-- The softmax of three extended reals, component j: the exponentials are taken after subtracting the largest of
    the three, added left to right, and each is divided by the sum. -/
def soft (y0 y1 y2 : EReal) (j : Fin 3) : EReal :=
  Ideal.div (Ideal.exp ((![y0, y1, y2] j) - max (max y0 y1) y2))
    ((Ideal.exp (y0 - max (max y0 y1) y2) + Ideal.exp (y1 - max (max y0 y1) y2)) + Ideal.exp (y2 - max (max y0 y1) y2))

/-- The thirteen argument arrays. -/
structure Params where
  x : Arr ⟨3, ![2, 262144, 2]⟩
  w1a : Arr ⟨2, ![128, 2]⟩
  w1b : Arr ⟨2, ![128, 2]⟩
  b1a : Arr ⟨1, ![128]⟩
  b1b : Arr ⟨1, ![128]⟩
  w2a : Arr ⟨2, ![128, 128]⟩
  w2b : Arr ⟨2, ![128, 128]⟩
  b2a : Arr ⟨1, ![128]⟩
  b2b : Arr ⟨1, ![128]⟩
  w3a : Arr ⟨2, ![1, 128]⟩
  w3b : Arr ⟨2, ![3, 128]⟩
  b3a : Arr ⟨1, ![1]⟩
  b3b : Arr ⟨1, ![3]⟩

variable (P : Params)

/-- First hidden layer of the first branch at sample n. -/
def a1 (n : Fin 262144) : Fin 128 → EReal := hid (fun k : Fin 2 => P.x (ix3 0 n k)) P.w1a P.b1a
/-- First hidden layer of the second branch at sample n. -/
def b1 (n : Fin 262144) : Fin 128 → EReal := hid (fun k : Fin 2 => P.x (ix3 1 n k)) P.w1b P.b1b
/-- Second hidden layer of the first branch. -/
def a2 (n : Fin 262144) : Fin 128 → EReal := hid (a1 P n) P.w2a P.b2a
/-- Second hidden layer of the second branch. -/
def b2 (n : Fin 262144) : Fin 128 → EReal := hid (b1 P n) P.w2b P.b2b
/-- The first branch's read-out (one unit). -/
def a3 (n : Fin 262144) : EReal := lin (a2 P n) P.w3a P.b3a 0
/-- The second branch's read-out (three units). -/
def b3 (n : Fin 262144) : Fin 3 → EReal := lin (b2 P n) P.w3b P.b3b
/-- The result at sample n, component j. -/
def prob (n : Fin 262144) (j : Fin 3) : EReal :=
  soft (a3 P n * b3 P n 0) (a3 P n * b3 P n 1) (a3 P n * b3 P n 2) j

/-- The result array, sample-major: [262144, 3]. -/
def G : Arr ⟨2, ![262144, 3]⟩ := fun i => prob P (i 0) (i 1)

/-- The same, component-major: [3, 262144] (what the kernel writes before the final transposition). -/
def Gt : Arr ⟨2, ![3, 262144]⟩ := fun i => prob P (i 1) (i 0)

end Cert.Krone

end
-- ==== Proof.LibBlockDiag.lean ====
/-
  Block-diagonal matrices and stacked vectors over the extended reals, and the host's way of building them.

  bd a b is the matrix [[a, 0], [0, b]]; cat a b is the column of a stacked on b.  A row of the top block times a vector
  only sees the vector's leading entries, because every product with an entry of the zero block is 0 * h = 0 (on the
  extended reals too, whatever h is); likewise for the bottom block.  The matrix built by two concatenations along the
  columns (a beside a zero block, a zero block beside b) and one along the rows is bd a b; two vectors concatenated
  and reshaped to a column are cat a b.
-/
import Idealize.ShloMosaic.Lib.Pipeline.Value
import Idealize.ShloMosaic.Lib.ValueIdx
import Idealize.ShloMosaic.PureOps.Ideal
import Mathlib.Algebra.BigOperators.Fin

noncomputable section

namespace Cert.LibBlockDiag

open Idealize.ShloMosaic Idealize.ShloMosaic.ValueIdx

/-- A sum over k < A + B is the sum over the first A indices plus the sum over the last B. -/
theorem sum_split {A B C : Nat} (hC : A + B = C) (f : Fin C → EReal) :
    ∑ k, f k = (∑ k : Fin A, f ⟨k.val, by have := k.isLt; omega⟩) + ∑ k : Fin B, f ⟨A + k.val, by have := k.isLt; omega⟩ := by
  subst hC
  exact Fin.sum_univ_add f

/-- The block-diagonal matrix [[a, 0], [0, b]]. -/
def bd {ra rb ca cb R C : Nat} (hR : ra + rb = R) (hC : ca + cb = C) (a : ((⟨2, ![ra, ca]⟩ : Shape).Idx → EReal)) (b : ((⟨2, ![rb, cb]⟩ : Shape).Idx → EReal)) :
    ((⟨2, ![R, C]⟩ : Shape).Idx → EReal) := fun i =>
  if h : (i 0).val < ra then
    (if h' : (i 1).val < ca then a (ix2 ⟨(i 0).val, h⟩ ⟨(i 1).val, h'⟩) else 0)
  else
    (if h' : (i 1).val < ca then 0
     else b (ix2 ⟨(i 0).val - ra, by have := idx2_lt0 i; omega⟩ ⟨(i 1).val - ca, by have := idx2_lt1 i; omega⟩))

/-- Two vectors stacked into one column. -/
def cat {na nb N : Nat} (hN : na + nb = N) (a : ((⟨1, ![na]⟩ : Shape).Idx → EReal)) (b : ((⟨1, ![nb]⟩ : Shape).Idx → EReal)) : ((⟨2, ![N, 1]⟩ : Shape).Idx → EReal) := fun i =>
  if h : (i 0).val < na then a (ix1 ⟨(i 0).val, h⟩) else b (ix1 ⟨(i 0).val - na, by have := idx2_lt0 i; omega⟩)

section Blocks

variable {ra rb ca cb R C : Nat} (hR : ra + rb = R) (hC : ca + cb = C) (a : ((⟨2, ![ra, ca]⟩ : Shape).Idx → EReal)) (b : ((⟨2, ![rb, cb]⟩ : Shape).Idx → EReal))

/-- The four blocks' entries. -/
theorem bd_tl (p : Fin ra) (q : Fin ca) (hp : p.val < R) (hq : q.val < C) :
    bd hR hC a b (ix2 ⟨p.val, hp⟩ ⟨q.val, hq⟩) = a (ix2 p q) := by
  have h0 : ((ix2 (⟨p.val, hp⟩ : Fin R) (⟨q.val, hq⟩ : Fin C)) 0).val < ra := p.isLt
  have h1 : ((ix2 (⟨p.val, hp⟩ : Fin R) (⟨q.val, hq⟩ : Fin C)) 1).val < ca := q.isLt
  unfold bd
  rw [dif_pos h0, dif_pos h1]
  rfl

theorem bd_tr (p : Fin ra) (q : Fin cb) (hp : p.val < R) (hq : ca + q.val < C) :
    bd hR hC a b (ix2 ⟨p.val, hp⟩ ⟨ca + q.val, hq⟩) = 0 := by
  have h0 : ((ix2 (⟨p.val, hp⟩ : Fin R) (⟨ca + q.val, hq⟩ : Fin C)) 0).val < ra := p.isLt
  have h1 : ¬ ((ix2 (⟨p.val, hp⟩ : Fin R) (⟨ca + q.val, hq⟩ : Fin C)) 1).val < ca := by
    show ¬ ca + q.val < ca; omega
  unfold bd
  rw [dif_pos h0, dif_neg h1]

theorem bd_bl (p : Fin rb) (q : Fin ca) (hp : ra + p.val < R) (hq : q.val < C) :
    bd hR hC a b (ix2 ⟨ra + p.val, hp⟩ ⟨q.val, hq⟩) = 0 := by
  have h0 : ¬ ((ix2 (⟨ra + p.val, hp⟩ : Fin R) (⟨q.val, hq⟩ : Fin C)) 0).val < ra := by
    show ¬ ra + p.val < ra; omega
  have h1 : ((ix2 (⟨ra + p.val, hp⟩ : Fin R) (⟨q.val, hq⟩ : Fin C)) 1).val < ca := q.isLt
  unfold bd
  rw [dif_neg h0, dif_pos h1]

theorem bd_br (p : Fin rb) (q : Fin cb) (hp : ra + p.val < R) (hq : ca + q.val < C) :
    bd hR hC a b (ix2 ⟨ra + p.val, hp⟩ ⟨ca + q.val, hq⟩) = b (ix2 p q) := by
  have h0 : ¬ ((ix2 (⟨ra + p.val, hp⟩ : Fin R) (⟨ca + q.val, hq⟩ : Fin C)) 0).val < ra := by
    show ¬ ra + p.val < ra; omega
  have h1 : ¬ ((ix2 (⟨ra + p.val, hp⟩ : Fin R) (⟨ca + q.val, hq⟩ : Fin C)) 1).val < ca := by
    show ¬ ca + q.val < ca; omega
  unfold bd
  rw [dif_neg h0, dif_neg h1]
  refine congrArg b (funext fun d => Fin.ext ?_)
  match d with
  | ⟨0, _⟩ => show ra + p.val - ra = p.val; omega
  | ⟨1, _⟩ => show ca + q.val - ca = q.val; omega

/-- A row of the top block against a vector: only the vector's first ca entries count. -/
theorem bd_row_top (H : Fin C → EReal) (p : Fin ra) (hp : p.val < R) :
    ∑ k : Fin C, bd hR hC a b (ix2 ⟨p.val, hp⟩ k) * H k
      = ∑ k : Fin ca, H ⟨k.val, by have := k.isLt; omega⟩ * a (ix2 p k) := by
  rw [sum_split hC]
  have e1 : ∀ k : Fin ca, bd hR hC a b (ix2 ⟨p.val, hp⟩ ⟨k.val, by have := k.isLt; omega⟩) * H ⟨k.val, by have := k.isLt; omega⟩
      = H ⟨k.val, by have := k.isLt; omega⟩ * a (ix2 p k) := fun k => by rw [bd_tl, mul_comm]
  have e2 : ∀ k : Fin cb, bd hR hC a b (ix2 ⟨p.val, hp⟩ ⟨ca + k.val, by have := k.isLt; omega⟩) * H ⟨ca + k.val, by have := k.isLt; omega⟩
      = 0 := fun k => by rw [bd_tr, zero_mul]
  rw [Finset.sum_congr rfl fun k _ => e1 k, Finset.sum_congr rfl fun k _ => e2 k, Finset.sum_const_zero, add_zero]

/-- A row of the bottom block against a vector: only the vector's last cb entries count. -/
theorem bd_row_bot (H : Fin C → EReal) (p : Fin rb) (hp : ra + p.val < R) :
    ∑ k : Fin C, bd hR hC a b (ix2 ⟨ra + p.val, hp⟩ k) * H k
      = ∑ k : Fin cb, H ⟨ca + k.val, by have := k.isLt; omega⟩ * b (ix2 p k) := by
  rw [sum_split hC]
  have e1 : ∀ k : Fin ca, bd hR hC a b (ix2 ⟨ra + p.val, hp⟩ ⟨k.val, by have := k.isLt; omega⟩) * H ⟨k.val, by have := k.isLt; omega⟩
      = 0 := fun k => by rw [bd_bl, zero_mul]
  have e2 : ∀ k : Fin cb, bd hR hC a b (ix2 ⟨ra + p.val, hp⟩ ⟨ca + k.val, by have := k.isLt; omega⟩) * H ⟨ca + k.val, by have := k.isLt; omega⟩
      = H ⟨ca + k.val, by have := k.isLt; omega⟩ * b (ix2 p k) := fun k => by rw [bd_br, mul_comm]
  rw [Finset.sum_congr rfl fun k _ => e1 k, Finset.sum_congr rfl fun k _ => e2 k, Finset.sum_const_zero, zero_add]

end Blocks

section Stack

variable {na nb N : Nat} (hN : na + nb = N) (a : ((⟨1, ![na]⟩ : Shape).Idx → EReal)) (b : ((⟨1, ![nb]⟩ : Shape).Idx → EReal))

/-- The two parts' entries. -/
theorem cat_top (p : Fin na) (hp : p.val < N) : cat hN a b (ix2 ⟨p.val, hp⟩ 0) = a (ix1 p) := by
  have h0 : ((ix2 (⟨p.val, hp⟩ : Fin N) (0 : Fin 1)) 0).val < na := p.isLt
  unfold cat
  rw [dif_pos h0]
  rfl

theorem cat_bot (p : Fin nb) (hp : na + p.val < N) : cat hN a b (ix2 ⟨na + p.val, hp⟩ 0) = b (ix1 p) := by
  have h0 : ¬ ((ix2 (⟨na + p.val, hp⟩ : Fin N) (0 : Fin 1)) 0).val < na := by
    show ¬ na + p.val < na; omega
  unfold cat
  rw [dif_neg h0]
  refine congrArg b (funext fun d => Fin.ext ?_)
  match d with
  | ⟨0, _⟩ => show na + p.val - na = p.val; omega

end Stack

/-! ## The host's construction -/

/-- Two concatenations along the columns and one along the rows, with zero off-diagonal pieces, build bd a b. -/
theorem concat_bd {ra rb ca cb R C : Nat} (hR : ra + rb = R) (hC : ca + cb = C)
    (a : ((⟨2, ![ra, ca]⟩ : Shape).Idx → EReal)) (b : ((⟨2, ![rb, cb]⟩ : Shape).Idx → EReal)) (za : ((⟨2, ![ra, cb]⟩ : Shape).Idx → EReal)) (zb : ((⟨2, ![rb, ca]⟩ : Shape).Idx → EReal))
    (hza : ∀ i, za i = 0) (hzb : ∀ i, zb i = 0)
    (h1 : Shape.Concatenates [(⟨2, ![ra, ca]⟩ : Shape), ⟨2, ![ra, cb]⟩] ⟨2, ![ra, C]⟩ (1 : Fin 2))
    (h2 : Shape.Concatenates [(⟨2, ![rb, ca]⟩ : Shape), ⟨2, ![rb, cb]⟩] ⟨2, ![rb, C]⟩ (1 : Fin 2))
    (h3 : Shape.Concatenates [(⟨2, ![ra, C]⟩ : Shape), ⟨2, ![rb, C]⟩] ⟨2, ![R, C]⟩ (0 : Fin 2)) :
    concatenate (⟨2, ![R, C]⟩ : Shape) (0 : Fin 2)
      [⟨⟨2, ![ra, C]⟩, concatenate (⟨2, ![ra, C]⟩ : Shape) (1 : Fin 2) [⟨⟨2, ![ra, ca]⟩, a⟩, ⟨⟨2, ![ra, cb]⟩, za⟩] h1⟩,
       ⟨⟨2, ![rb, C]⟩, concatenate (⟨2, ![rb, C]⟩ : Shape) (1 : Fin 2) [⟨⟨2, ![rb, ca]⟩, zb⟩, ⟨⟨2, ![rb, cb]⟩, b⟩] h2⟩] h3
    = bd hR hC a b := by
  funext i
  obtain ⟨p, q, rfl⟩ : ∃ (p : Fin R) (q : Fin C), i = ix2 p q := ⟨i 0, i 1, eq_ix2 i⟩
  have hpR := p.isLt
  have hqC := q.isLt
  unfold bd
  by_cases hp : p.val < ra
  · rw [dif_pos (show ((ix2 p q) 0).val < ra from hp)]
    refine (concatenate_pair_apply_left (s₁ := ⟨2, ![ra, C]⟩) (s₂ := ⟨2, ![rb, C]⟩) (0 : Fin 2) _ _ h3 (ix2 p q) rfl (ix2 (⟨p.val, hp⟩ : Fin ra) q) (fun d => by
      match d with
      | ⟨0, _⟩ => rfl
      | ⟨1, _⟩ => rfl)).trans ?_
    by_cases hq : q.val < ca
    · rw [dif_pos (show ((ix2 p q) 1).val < ca from hq)]
      exact concatenate_pair_apply_left (1 : Fin 2) a za h1 (ix2 (⟨p.val, hp⟩ : Fin ra) q) rfl (ix2 (⟨p.val, hp⟩ : Fin ra) (⟨q.val, hq⟩ : Fin ca)) (fun d => by
        match d with
        | ⟨0, _⟩ => rfl
        | ⟨1, _⟩ => rfl)
    · rw [dif_neg (show ¬ ((ix2 p q) 1).val < ca from hq)]
      refine (concatenate_pair_apply_right (1 : Fin 2) a za h1 (ix2 (⟨p.val, hp⟩ : Fin ra) q) rfl rfl (ix2 (⟨p.val, hp⟩ : Fin ra) (⟨q.val - ca, by omega⟩ : Fin cb))
        (fun d hd => by
          match d with
          | ⟨0, _⟩ => rfl
          | ⟨1, _⟩ => exact absurd rfl hd)
        (by show q.val - ca + ca = q.val; omega)).trans (hza _)
  · rw [dif_neg (show ¬ ((ix2 p q) 0).val < ra from hp)]
    refine (concatenate_pair_apply_right (s₁ := ⟨2, ![ra, C]⟩) (s₂ := ⟨2, ![rb, C]⟩) (0 : Fin 2) _ _ h3 (ix2 p q) rfl rfl (ix2 (⟨p.val - ra, by omega⟩ : Fin rb) q)
      (fun d hd => by
        match d with
        | ⟨0, _⟩ => exact absurd rfl hd
        | ⟨1, _⟩ => rfl)
      (by show p.val - ra + ra = p.val; omega)).trans ?_
    by_cases hq : q.val < ca
    · rw [dif_pos (show ((ix2 p q) 1).val < ca from hq)]
      exact (concatenate_pair_apply_left (1 : Fin 2) zb b h2 (ix2 (⟨p.val - ra, by omega⟩ : Fin rb) q) rfl (ix2 (⟨p.val - ra, by omega⟩ : Fin rb) (⟨q.val, hq⟩ : Fin ca)) (fun d => by
        match d with
        | ⟨0, _⟩ => rfl
        | ⟨1, _⟩ => rfl)).trans (hzb _)
    · rw [dif_neg (show ¬ ((ix2 p q) 1).val < ca from hq)]
      exact concatenate_pair_apply_right (1 : Fin 2) zb b h2 (ix2 (⟨p.val - ra, by omega⟩ : Fin rb) q) rfl rfl (ix2 (⟨p.val - ra, by omega⟩ : Fin rb) (⟨q.val - ca, by omega⟩ : Fin cb))
        (fun d hd => by
          match d with
          | ⟨0, _⟩ => rfl
          | ⟨1, _⟩ => exact absurd rfl hd)
        (by show q.val - ca + ca = q.val; omega)

/-- Two vectors concatenated and reshaped to a column are cat a b. -/
theorem concat_cat {na nb N : Nat} (hN : na + nb = N) (a : ((⟨1, ![na]⟩ : Shape).Idx → EReal)) (b : ((⟨1, ![nb]⟩ : Shape).Idx → EReal))
    (h : Shape.Concatenates [(⟨1, ![na]⟩ : Shape), ⟨1, ![nb]⟩] ⟨1, ![N]⟩ (0 : Fin 1))
    (hs : (⟨1, ![N]⟩ : Shape).ShapeCasts ⟨2, ![N, 1]⟩) :
    shapeCast (⟨2, ![N, 1]⟩ : Shape) (concatenate (⟨1, ![N]⟩ : Shape) (0 : Fin 1) [⟨⟨1, ![na]⟩, a⟩, ⟨⟨1, ![nb]⟩, b⟩] h) hs
    = cat hN a b := by
  funext i
  obtain ⟨p, q, rfl⟩ : ∃ (p : Fin N) (q : Fin 1), i = ix2 p q := ⟨i 0, i 1, eq_ix2 i⟩
  have hpN := p.isLt
  have hq0 : q.val = 0 := by have := q.isLt; omega
  refine (shapeCast_apply _ hs (ix2 p q) (ix1 p) (by
    rw [Shape.rowMajor_val_two, Shape.rowMajor_val_one]
    show p.val = p.val * 1 + q.val
    omega)).trans ?_
  unfold cat
  by_cases hp : p.val < na
  · rw [dif_pos (show ((ix2 p q) 0).val < na from hp)]
    exact concatenate_pair_apply_left (0 : Fin 1) a b h (ix1 p) rfl (ix1 (⟨p.val, hp⟩ : Fin na)) (fun d => by
      match d with
      | ⟨0, _⟩ => rfl)
  · rw [dif_neg (show ¬ ((ix2 p q) 0).val < na from hp)]
    exact concatenate_pair_apply_right (0 : Fin 1) a b h (ix1 p) rfl rfl (ix1 (⟨p.val - na, by omega⟩ : Fin nb))
      (fun d hd => by
        match d with
        | ⟨0, _⟩ => exact absurd rfl hd)
      (by show p.val - na + na = p.val; omega)

end Cert.LibBlockDiag

end
-- ==== Proof.Fused.lean ====
/-
  The fused, feature-major form of the network, and why it computes the same numbers.

  The two branches are run as ONE perceptron on the stacked input (x[0,n,0], x[0,n,1], x[1,n,0], x[1,n,1]) whose weight
  matrices are block diagonal: the first branch's weights in the top-left block, the second branch's in the
  bottom-right block, zeros elsewhere; the biases are stacked.  In a row of the top block every product with an entry
  of the right block is 0 * h = 0 (on the extended reals too), so the row's sum is the first branch's sum over its own
  inputs; likewise for the bottom block.  Hence unit o < 128 of a fused hidden layer is unit o of the first branch
  and unit 128 + o is unit o of the second, and the four fused read-outs are (a3, b3 0, b3 1, b3 2).
-/
import proofs.«161283_j59485297049802_2_alg».proof.Proof.Spec
import proofs.«161283_j59485297049802_2_alg».proof.Proof.LibBlockDiag

noncomputable section

namespace Cert.Krone

open Idealize.ShloMosaic Idealize.ShloMosaic.ValueIdx Cert.LibBlockDiag

/-! ## The fused layers -/

/-- A fused first-layer unit: weights [256,4] against the stacked 4-vector, bias column [256,1], rectified. -/
def col1 (X : Fin 4 → EReal) (W : Arr ⟨2, ![256, 4]⟩) (B : Arr ⟨2, ![256, 1]⟩) (o : Fin 256) : EReal :=
  max ((∑ k : Fin 4, W (ix2 o k) * X k) + B (ix2 o 0)) 0

/-- A fused second-layer unit. -/
def col2 (H : Fin 256 → EReal) (W : Arr ⟨2, ![256, 256]⟩) (B : Arr ⟨2, ![256, 1]⟩) (o : Fin 256) : EReal :=
  max ((∑ k : Fin 256, W (ix2 o k) * H k) + B (ix2 o 0)) 0

/-- A fused read-out unit (no rectification). -/
def col3 (H : Fin 256 → EReal) (W : Arr ⟨2, ![4, 256]⟩) (B : Arr ⟨2, ![4, 1]⟩) (r : Fin 4) : EReal :=
  (∑ k : Fin 256, W (ix2 r k) * H k) + B (ix2 r 0)

variable (P : Params)

/-- The stacked input of sample n: entry k is x[k / 2, n, k % 2]. -/
def xcol (n : Fin 262144) (k : Fin 4) : EReal :=
  P.x (ix3 ⟨k.val / 2, by have := k.isLt; omega⟩ n ⟨k.val % 2, by omega⟩)

/-- The stacked input as an array [4, 262144]. -/
def Xt : Arr ⟨2, ![4, 262144]⟩ := fun i => xcol P (i 1) (i 0)

def W1 : Arr ⟨2, ![256, 4]⟩ := bd (ra := 128) (rb := 128) (ca := 2) (cb := 2) rfl rfl P.w1a P.w1b
def B1 : Arr ⟨2, ![256, 1]⟩ := cat (na := 128) (nb := 128) rfl P.b1a P.b1b
def W2 : Arr ⟨2, ![256, 256]⟩ := bd (ra := 128) (rb := 128) (ca := 128) (cb := 128) rfl rfl P.w2a P.w2b
def B2 : Arr ⟨2, ![256, 1]⟩ := cat (na := 128) (nb := 128) rfl P.b2a P.b2b
def W3 : Arr ⟨2, ![4, 256]⟩ := bd (ra := 1) (rb := 3) (ca := 128) (cb := 128) rfl rfl P.w3a P.w3b
def B3 : Arr ⟨2, ![4, 1]⟩ := cat (na := 1) (nb := 3) rfl P.b3a P.b3b

def h1 (n : Fin 262144) : Fin 256 → EReal := col1 (xcol P n) (W1 P) (B1 P)
def h2 (n : Fin 262144) : Fin 256 → EReal := col2 (h1 P n) (W2 P) (B2 P)
def h3 (n : Fin 262144) : Fin 4 → EReal := col3 (h2 P n) (W3 P) (B3 P)

theorem xcol_top (n : Fin 262144) (k : Fin 2) (hk : k.val < 4) : xcol P n ⟨k.val, hk⟩ = P.x (ix3 0 n k) :=
  congrArg P.x (funext fun d => by
    match d with
    | ⟨0, _⟩ => exact Fin.ext (by show k.val / 2 = 0; have := k.isLt; omega)
    | ⟨1, _⟩ => rfl
    | ⟨2, _⟩ => exact Fin.ext (by show k.val % 2 = k.val; have := k.isLt; omega))

theorem xcol_bot (n : Fin 262144) (k : Fin 2) (hk : 2 + k.val < 4) : xcol P n ⟨2 + k.val, hk⟩ = P.x (ix3 1 n k) :=
  congrArg P.x (funext fun d => by
    match d with
    | ⟨0, _⟩ => exact Fin.ext (by show (2 + k.val) / 2 = 1; have := k.isLt; omega)
    | ⟨1, _⟩ => rfl
    | ⟨2, _⟩ => exact Fin.ext (by show (2 + k.val) % 2 = k.val; have := k.isLt; omega))

theorem h1_top (n : Fin 262144) (o : Fin 128) (ho : o.val < 256) : h1 P n ⟨o.val, ho⟩ = a1 P n o := by
  unfold h1 col1 a1 hid W1 B1
  rw [bd_row_top, cat_top]
  simp only [xcol_top]

theorem h1_bot (n : Fin 262144) (o : Fin 128) (ho : 128 + o.val < 256) : h1 P n ⟨128 + o.val, ho⟩ = b1 P n o := by
  unfold h1 col1 b1 hid W1 B1
  rw [bd_row_bot, cat_bot]
  simp only [xcol_bot]

theorem h2_top (n : Fin 262144) (o : Fin 128) (ho : o.val < 256) : h2 P n ⟨o.val, ho⟩ = a2 P n o := by
  unfold h2 col2 a2 hid W2 B2
  rw [bd_row_top, cat_top]
  simp only [h1_top]

theorem h2_bot (n : Fin 262144) (o : Fin 128) (ho : 128 + o.val < 256) : h2 P n ⟨128 + o.val, ho⟩ = b2 P n o := by
  unfold h2 col2 b2 hid W2 B2
  rw [bd_row_bot, cat_bot]
  simp only [h1_bot]

theorem h3_top (n : Fin 262144) (j : Fin 1) (hj : j.val < 4) : h3 P n ⟨j.val, hj⟩ = lin (a2 P n) P.w3a P.b3a j := by
  unfold h3 col3 lin W3 B3
  rw [bd_row_top, cat_top]
  simp only [h2_top]

theorem h3_bot (n : Fin 262144) (j : Fin 3) (hj : 1 + j.val < 4) : h3 P n ⟨1 + j.val, hj⟩ = b3 P n j := by
  unfold h3 col3 b3 lin W3 B3
  rw [bd_row_bot, cat_bot]
  simp only [h2_bot]

/-- The softmax of the products of the fused read-outs is the network's result. -/
theorem soft_h3 (n : Fin 262144) (j : Fin 3) :
    soft (h3 P n 0 * h3 P n 1) (h3 P n 0 * h3 P n 2) (h3 P n 0 * h3 P n 3) j = prob P n j := by
  have e0 : h3 P n 0 = a3 P n := h3_top P n 0 (by decide)
  have e1 : h3 P n 1 = b3 P n 0 := h3_bot P n 0 (by decide)
  have e2 : h3 P n 2 = b3 P n 1 := h3_bot P n 1 (by decide)
  have e3 : h3 P n 3 = b3 P n 2 := h3_bot P n 2 (by decide)
  rw [e0, e1, e2, e3]
  rfl

end Cert.Krone

end
-- ==== Proof.LibPlainDot.lean ====
/-
  A plain matrix product read at an index.  For dimension numbers that contract the left operand's second axis with
  the right operand's first and have no batch axes, the contraction  sum over k of l[(i, k)] * r[(k, j)]  ranges over
  the contraction shape's indices; that shape has one axis of extent K, so the sum is one over k < K.  The four
  coordinate facts (which coordinate of the output index or of the contraction index each operand index carries)
  are hypotheses: for a printed record each is decided by unfolding the record.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M,K] x [K,N] product at output index i is the sum over k < K of
    l (i 0, k) * r (k, i 1). -/
theorem sum_plain {M K N : Nat} (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (c : Fin N) :
    ∑ k : d.contr.Idx, l (d.lhsIdx (ix2 p c) k) * r (d.rhsIdx (ix2 p c) k) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Payload.lean ====
/-
  The kernel body's arithmetic at one column.

  The body holds a [4, T] block of stacked inputs and the fused weights and biases whole.  Each of its three matrix
  products into a zero accumulator is, at an output index (p, c), the sum over k of l[p,k] * r[k,c]; the bias column is
  broadcast along the columns; the rectification is a maximum with 0; the changes of float format are the identity on
  the extended reals.  So column c of the body's last linear stage is the fused three-layer perceptron of column c of
  the input block, and the three stored rows are the softmax of the products of its first entry with the other three.
-/
import proofs.«161283_j59485297049802_2_alg».proof.Proof.Gen.KernelIdeal.Skeleton
import proofs.«161283_j59485297049802_2_alg».proof.Proof.Fused
import proofs.«161283_j59485297049802_2_alg».proof.Proof.LibPlainDot
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Krone

/-- The contraction of `dot_S256x4_S4x8192_S256x8192_1_0_0_1_n_n` at output (p, c) is the sum over k < 4 of l[p,k] * r[k,c]. -/
theorem dotA (l : S256x4.Idx → EReal) (r : S4x8192.Idx → EReal) (p : Fin 256) (c : Fin 8192) :
    ∑ k : dot_S256x4_S4x8192_S256x8192_1_0_0_1_n_n.contr.Idx, l (dot_S256x4_S4x8192_S256x8192_1_0_0_1_n_n.lhsIdx (ix2 p c) k) * r (dot_S256x4_S4x8192_S256x8192_1_0_0_1_n_n.rhsIdx (ix2 p c) k)
      = ∑ k : Fin 4, l (ix2 p k) * r (ix2 k c) :=
  Cert.LibPlainDot.sum_plain dot_S256x4_S4x8192_S256x8192_1_0_0_1_n_n rfl rfl
    (fun i q => by
      unfold DotDims.lhsIdx
      rw [dif_neg (show ¬(0 : Fin S256x4.rank) ∈ dot_S256x4_S4x8192_S256x8192_1_0_0_1_n_n.lhsBatch by decide), dif_pos (show (0 : Fin S256x4.rank) ∈ dot_S256x4_S4x8192_S256x8192_1_0_0_1_n_n.lhsNonContracting by decide)]
      rfl)
    (fun i q => dot_S256x4_S4x8192_S256x8192_1_0_0_1_n_n.lhsIdx_val_of_single rfl i q)
    (fun i q => dot_S256x4_S4x8192_S256x8192_1_0_0_1_n_n.rhsIdx_val_of_single rfl i q)
    (fun i q => by
      unfold DotDims.rhsIdx
      rw [dif_neg (show ¬(1 : Fin S4x8192.rank) ∈ dot_S256x4_S4x8192_S256x8192_1_0_0_1_n_n.rhsBatch by decide), dif_pos (show (1 : Fin S4x8192.rank) ∈ dot_S256x4_S4x8192_S256x8192_1_0_0_1_n_n.rhsNonContracting by decide)]
      rfl)
    l r p c

/-- The contraction of `dot_S256x256_S256x8192_S256x8192_1_0_0_1_n_n` at output (p, c) is the sum over k < 256 of l[p,k] * r[k,c]. -/
theorem dotB (l : S256x256.Idx → EReal) (r : S256x8192.Idx → EReal) (p : Fin 256) (c : Fin 8192) :
    ∑ k : dot_S256x256_S256x8192_S256x8192_1_0_0_1_n_n.contr.Idx, l (dot_S256x256_S256x8192_S256x8192_1_0_0_1_n_n.lhsIdx (ix2 p c) k) * r (dot_S256x256_S256x8192_S256x8192_1_0_0_1_n_n.rhsIdx (ix2 p c) k)
      = ∑ k : Fin 256, l (ix2 p k) * r (ix2 k c) :=
  Cert.LibPlainDot.sum_plain dot_S256x256_S256x8192_S256x8192_1_0_0_1_n_n rfl rfl
    (fun i q => by
      unfold DotDims.lhsIdx
      rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
      rfl)
    (fun i q => dot_S256x256_S256x8192_S256x8192_1_0_0_1_n_n.lhsIdx_val_of_single rfl i q)
    (fun i q => dot_S256x256_S256x8192_S256x8192_1_0_0_1_n_n.rhsIdx_val_of_single rfl i q)
    (fun i q => by
      unfold DotDims.rhsIdx
      rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
      rfl)
    l r p c

/-- The contraction of `dot_S4x256_S256x8192_S4x8192_1_0_0_1_n_n` at output (p, c) is the sum over k < 256 of l[p,k] * r[k,c]. -/
theorem dotC (l : S4x256.Idx → EReal) (r : S256x8192.Idx → EReal) (p : Fin 4) (c : Fin 8192) :
    ∑ k : dot_S4x256_S256x8192_S4x8192_1_0_0_1_n_n.contr.Idx, l (dot_S4x256_S256x8192_S4x8192_1_0_0_1_n_n.lhsIdx (ix2 p c) k) * r (dot_S4x256_S256x8192_S4x8192_1_0_0_1_n_n.rhsIdx (ix2 p c) k)
      = ∑ k : Fin 256, l (ix2 p k) * r (ix2 k c) :=
  Cert.LibPlainDot.sum_plain dot_S4x256_S256x8192_S4x8192_1_0_0_1_n_n rfl rfl
    (fun i q => by
      unfold DotDims.lhsIdx
      rw [dif_neg (show ¬(0 : Fin S4x256.rank) ∈ dot_S4x256_S256x8192_S4x8192_1_0_0_1_n_n.lhsBatch by decide), dif_pos (show (0 : Fin S4x256.rank) ∈ dot_S4x256_S256x8192_S4x8192_1_0_0_1_n_n.lhsNonContracting by decide)]
      rfl)
    (fun i q => dot_S4x256_S256x8192_S4x8192_1_0_0_1_n_n.lhsIdx_val_of_single rfl i q)
    (fun i q => dot_S4x256_S256x8192_S4x8192_1_0_0_1_n_n.rhsIdx_val_of_single rfl i q)
    (fun i q => by
      unfold DotDims.rhsIdx
      rw [dif_neg (show ¬(1 : Fin S256x8192.rank) ∈ dot_S4x256_S256x8192_S4x8192_1_0_0_1_n_n.rhsBatch by decide), dif_pos (show (1 : Fin S256x8192.rank) ∈ dot_S4x256_S256x8192_S4x8192_1_0_0_1_n_n.rhsNonContracting by decide)]
      rfl)
    l r p c

/-- A bias column [R, 1] broadcast along T columns reads, at (p, c), the column's entry p. -/
theorem bcol256 (v : S256x1.Idx → EReal) (p : Fin 256) (c : Fin 8192) :
    broadcastTo S256x8192 v broadcasts_S256x1_S256x8192 (ix2 p c) = v (ix2 p 0) :=
  broadcastTo_apply v broadcasts_S256x1_S256x8192 (ix2 p c) (ix2 p 0) (fun a => by
    match a with
    | ⟨0, _⟩ => rfl
    | ⟨1, _⟩ => rfl)

theorem bcol4 (v : S4x1.Idx → EReal) (p : Fin 4) (c : Fin 8192) :
    broadcastTo S4x8192 v broadcasts_S4x1_S4x8192 (ix2 p c) = v (ix2 p 0) :=
  broadcastTo_apply v broadcasts_S4x1_S4x8192 (ix2 p c) (ix2 p 0) (fun a => by
    match a with
    | ⟨0, _⟩ => rfl
    | ⟨1, _⟩ => rfl)

/-- Row j of a [4, T] value, sliced out as a [1, T] value, read at column c. -/
theorem slice0 (v : FVec Ideal S4x8192 .f32) (c : Fin 8192) :
    extractStridedSlice S1x8192 ![0, 0] v slices_S4x8192_o0_0_S1x8192 (ix2 0 c) = v (ix2 0 c) :=
  extractStridedSlice_apply ![0, 0] v slices_S4x8192_o0_0_S1x8192 (ix2 0 c) (ix2 0 c) (fun a => by
    match a with
    | ⟨0, _⟩ => rfl
    | ⟨1, _⟩ => show c.val = 0 + c.val; omega)
theorem slice1 (v : FVec Ideal S4x8192 .f32) (c : Fin 8192) :
    extractStridedSlice S1x8192 ![1, 0] v slices_S4x8192_o1_0_S1x8192 (ix2 0 c) = v (ix2 1 c) :=
  extractStridedSlice_apply ![1, 0] v slices_S4x8192_o1_0_S1x8192 (ix2 0 c) (ix2 1 c) (fun a => by
    match a with
    | ⟨0, _⟩ => rfl
    | ⟨1, _⟩ => show c.val = 0 + c.val; omega)
theorem slice2 (v : FVec Ideal S4x8192 .f32) (c : Fin 8192) :
    extractStridedSlice S1x8192 ![2, 0] v slices_S4x8192_o2_0_S1x8192 (ix2 0 c) = v (ix2 2 c) :=
  extractStridedSlice_apply ![2, 0] v slices_S4x8192_o2_0_S1x8192 (ix2 0 c) (ix2 2 c) (fun a => by
    match a with
    | ⟨0, _⟩ => rfl
    | ⟨1, _⟩ => show c.val = 0 + c.val; omega)
theorem slice3 (v : FVec Ideal S4x8192 .f32) (c : Fin 8192) :
    extractStridedSlice S1x8192 ![3, 0] v slices_S4x8192_o3_0_S1x8192 (ix2 0 c) = v (ix2 3 c) :=
  extractStridedSlice_apply ![3, 0] v slices_S4x8192_o3_0_S1x8192 (ix2 0 c) (ix2 3 c) (fun a => by
    match a with
    | ⟨0, _⟩ => rfl
    | ⟨1, _⟩ => show c.val = 0 + c.val; omega)

/-- The first fused layer as the body spells it, at (p, c). -/
theorem layer1 (X : FVec Ideal S4x8192 .bf16) (W : FVec Ideal S256x4 .bf16) (B : FVec Ideal S256x1 .f32) (p : Fin 256) (c : Fin 8192) :
    (truncf .bf16 (maximumf (addf (matmul dot_S256x4_S4x8192_S256x8192_1_0_0_1_n_n none W X (constant S256x8192 .f32 0x00000000#32))
        (broadcastTo S256x8192 B broadcasts_S256x1_S256x8192)) (broadcast S256x8192 (FloatOps.ofBits .f32 0x00000000#32))) bitsLt_bf16_f32
      : FVec Ideal S256x8192 .bf16) (ix2 p c) = col1 (fun k => X (ix2 k c)) W B p := by
  show max (FloatOps.matmul dot_S256x4_S4x8192_S256x8192_1_0_0_1_n_n none W X (constant S256x8192 .f32 0x00000000#32) (ix2 p c)
      + broadcastTo S256x8192 B broadcasts_S256x1_S256x8192 (ix2 p c)) (Ideal.ofBits .f32 0x00000000#32) = _
  rw [Ideal.matmul_constant_zero_apply, dotA, bcol256, Ideal.ofBits_zero_f32]
  rfl

/-- The second fused layer as the body spells it, at (p, c). -/
theorem layer2 (H : FVec Ideal S256x8192 .bf16) (W : FVec Ideal S256x256 .bf16) (B : FVec Ideal S256x1 .f32) (p : Fin 256) (c : Fin 8192) :
    (truncf .bf16 (maximumf (addf (matmul dot_S256x256_S256x8192_S256x8192_1_0_0_1_n_n none W H (constant S256x8192 .f32 0x00000000#32))
        (broadcastTo S256x8192 B broadcasts_S256x1_S256x8192)) (broadcast S256x8192 (FloatOps.ofBits .f32 0x00000000#32))) bitsLt_bf16_f32
      : FVec Ideal S256x8192 .bf16) (ix2 p c) = col2 (fun k => H (ix2 k c)) W B p := by
  show max (FloatOps.matmul dot_S256x256_S256x8192_S256x8192_1_0_0_1_n_n none W H (constant S256x8192 .f32 0x00000000#32) (ix2 p c)
      + broadcastTo S256x8192 B broadcasts_S256x1_S256x8192 (ix2 p c)) (Ideal.ofBits .f32 0x00000000#32) = _
  rw [Ideal.matmul_constant_zero_apply, dotB, bcol256, Ideal.ofBits_zero_f32]
  rfl

/-- The fused read-out as the body spells it, at (r, c). -/
theorem layer3 (H : FVec Ideal S256x8192 .bf16) (W : FVec Ideal S4x256 .bf16) (B : FVec Ideal S4x1 .f32) (r : Fin 4) (c : Fin 8192) :
    (addf (matmul dot_S4x256_S256x8192_S4x8192_1_0_0_1_n_n none W H (constant S4x8192 .f32 0x00000000#32))
        (broadcastTo S4x8192 B broadcasts_S4x1_S4x8192) : FVec Ideal S4x8192 .f32) (ix2 r c) = col3 (fun k => H (ix2 k c)) W B r := by
  show FloatOps.matmul dot_S4x256_S256x8192_S4x8192_1_0_0_1_n_n none W H (constant S4x8192 .f32 0x00000000#32) (ix2 r c)
      + broadcastTo S4x8192 B broadcasts_S4x1_S4x8192 (ix2 r c) = _
  rw [Ideal.matmul_constant_zero_apply, dotC, bcol4]
  rfl

variable (x0 : FVec Ideal S4x8192 .bf16) (x1 : FVec Ideal S256x4 .bf16) (x2 : FVec Ideal S256x1 .f32)
  (x3 : FVec Ideal S256x256 .bf16) (x4 : FVec Ideal S256x1 .f32) (x5 : FVec Ideal S4x256 .bf16) (x6 : FVec Ideal S4x1 .f32)

/-- Column c of the body's last linear stage: the fused perceptron of column c of the input block. -/
def qcol (c : Fin 8192) : Fin 4 → EReal := col3 (col2 (col1 (fun k => x0 (ix2 k c)) x1 x2) x3 x4) x5 x6

theorem pay7_apply (r : Fin 4) (c : Fin 8192) :
    k0_pay7 (F := Ideal) x0 x1 x2 x3 x4 x5 x6 (ix2 r c) = qcol x0 x1 x2 x3 x4 x5 x6 c r := by
  unfold k0_pay7 qcol
  simp only [shapeCast_self]
  refine (layer3 _ _ _ r c).trans ?_
  refine congrArg (fun H => col3 H x5 x6 r) (funext fun k => ?_)
  refine (layer2 _ _ _ k c).trans ?_
  refine congrArg (fun H => col2 H x3 x4 k) (funext fun k' => ?_)
  exact layer1 x0 x1 x2 k' c

/-- The three stored rows at column c: the softmax of the products q0*q1, q0*q2, q0*q3 of column c's read-outs. -/
theorem store0_apply (c : Fin 8192) :
    k0_pay4 (F := Ideal) (k0_pay10 x0 x1 x2 x3 x4 x5 x6) (k0_pay11 x0 x1 x2 x3 x4 x5 x6) (k0_pay12 x0 x1 x2 x3 x4 x5 x6) (k0_pay13 x0 x1 x2 x3 x4 x5 x6) (ix2 0 c)
      = soft (qcol x0 x1 x2 x3 x4 x5 x6 c 0 * qcol x0 x1 x2 x3 x4 x5 x6 c 1) (qcol x0 x1 x2 x3 x4 x5 x6 c 0 * qcol x0 x1 x2 x3 x4 x5 x6 c 2) (qcol x0 x1 x2 x3 x4 x5 x6 c 0 * qcol x0 x1 x2 x3 x4 x5 x6 c 3) 0 := by
  rw [← pay7_apply, ← pay7_apply, ← pay7_apply, ← pay7_apply]
  unfold k0_pay4 k0_pay3 k0_pay1 k0_pay2 k0_pay13 k0_pay12 k0_pay11 k0_pay10 k0_pay9 k0_pay8
  generalize k0_pay7 (F := Ideal) x0 x1 x2 x3 x4 x5 x6 = v
  rw [← slice0 v c, ← slice1 v c, ← slice2 v c, ← slice3 v c]
  rfl

theorem store1_apply (c : Fin 8192) :
    k0_pay5 (F := Ideal) (k0_pay10 x0 x1 x2 x3 x4 x5 x6) (k0_pay11 x0 x1 x2 x3 x4 x5 x6) (k0_pay12 x0 x1 x2 x3 x4 x5 x6) (k0_pay13 x0 x1 x2 x3 x4 x5 x6) (ix2 0 c)
      = soft (qcol x0 x1 x2 x3 x4 x5 x6 c 0 * qcol x0 x1 x2 x3 x4 x5 x6 c 1) (qcol x0 x1 x2 x3 x4 x5 x6 c 0 * qcol x0 x1 x2 x3 x4 x5 x6 c 2) (qcol x0 x1 x2 x3 x4 x5 x6 c 0 * qcol x0 x1 x2 x3 x4 x5 x6 c 3) 1 := by
  rw [← pay7_apply, ← pay7_apply, ← pay7_apply, ← pay7_apply]
  unfold k0_pay5 k0_pay3 k0_pay1 k0_pay2 k0_pay13 k0_pay12 k0_pay11 k0_pay10 k0_pay9 k0_pay8
  generalize k0_pay7 (F := Ideal) x0 x1 x2 x3 x4 x5 x6 = v
  rw [← slice0 v c, ← slice1 v c, ← slice2 v c, ← slice3 v c]
  rfl

theorem store2_apply (c : Fin 8192) :
    k0_pay6 (F := Ideal) (k0_pay10 x0 x1 x2 x3 x4 x5 x6) (k0_pay11 x0 x1 x2 x3 x4 x5 x6) (k0_pay12 x0 x1 x2 x3 x4 x5 x6) (k0_pay13 x0 x1 x2 x3 x4 x5 x6) (ix2 0 c)
      = soft (qcol x0 x1 x2 x3 x4 x5 x6 c 0 * qcol x0 x1 x2 x3 x4 x5 x6 c 1) (qcol x0 x1 x2 x3 x4 x5 x6 c 0 * qcol x0 x1 x2 x3 x4 x5 x6 c 2) (qcol x0 x1 x2 x3 x4 x5 x6 c 0 * qcol x0 x1 x2 x3 x4 x5 x6 c 3) 2 := by
  rw [← pay7_apply, ← pay7_apply, ← pay7_apply, ← pay7_apply]
  unfold k0_pay6 k0_pay3 k0_pay1 k0_pay2 k0_pay13 k0_pay12 k0_pay11 k0_pay10 k0_pay9 k0_pay8
  generalize k0_pay7 (F := Ideal) x0 x1 x2 x3 x4 x5 x6 = v
  rw [← slice0 v c, ← slice1 v c, ← slice2 v c, ← slice3 v c]
  rfl

end Cert.KernelIdeal.Payload

end
-- ==== Proof.ArraysTerm.lean ====
/-
  What the host lines before the kernel leave in the seven arrays the kernel reads, as terms of the argument arrays:
  the input transposed to feature-major order and flattened to four rows; each layer's two weight matrices laid out as
  one block-diagonal matrix (each padded with a zero block by a concatenation along the columns, the two stacked along
  the rows); each layer's two bias vectors stacked into one column.  The roundings to bf16 are the identity here.
-/
import proofs.«161283_j59485297049802_2_alg».proof.Proof.Gen.KernelIdeal.Frame
import Idealize.ShloMosaic.Lib.StableHlo.Run
import Idealize.ShloMosaic.PureOps.Ideal

noncomputable section

namespace Cert.KernelIdeal.ArraysTerm

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (c : Dev nD)

/-- The stacked input [4, 262144]. -/
def t2 : FVec Ideal S4x262144 .bf16 :=
  truncf .bf16 (shapeCast S4x262144 (transpose S2x2x262144 [0, 2, 1] (m ((c : Thread nD τ).loc main_arg0)) transposes_S2x262144x2_S2x2x262144_0_2_1) shapeCasts_S2x2x262144_S4x262144) bitsLt_bf16_f32

/-- The first layer's fused weights [256, 4]. -/
def t8 : FVec Ideal S256x4 .bf16 :=
  truncf .bf16 (concatenate S256x4 0 [⟨S128x4, concatenate S128x4 1 [⟨S128x2, (m ((c : Thread nD τ).loc main_arg1))⟩, ⟨S128x2, (broadcastInDim S128x2 ![] bcast_S_S128x2 (constant (F := Ideal) S_ .f32 0x00000000#32))⟩] concatenates_S128x2_S128x2_S128x4_d1⟩,
    ⟨S128x4, concatenate S128x4 1 [⟨S128x2, (broadcastInDim S128x2 ![] bcast_S_S128x2 (constant (F := Ideal) S_ .f32 0x00000000#32))⟩, ⟨S128x2, (m ((c : Thread nD τ).loc main_arg2))⟩] concatenates_S128x2_S128x2_S128x4_d1⟩] concatenates_S128x4_S128x4_S256x4_d0) bitsLt_bf16_f32

/-- The first layer's stacked bias column [256, 1]. -/
def t10 : FVec Ideal S256x1 .f32 :=
  shapeCast S256x1 (concatenate S256 0 [⟨S128, (m ((c : Thread nD τ).loc main_arg3))⟩, ⟨S128, (m ((c : Thread nD τ).loc main_arg4))⟩] concatenates_S128_S128_S256_d0) shapeCasts_S256_S256x1

/-- The second layer's fused weights [256, 256]. -/
def t16 : FVec Ideal S256x256 .bf16 :=
  truncf .bf16 (concatenate S256x256 0 [⟨S128x256, concatenate S128x256 1 [⟨S128x128, (m ((c : Thread nD τ).loc main_arg5))⟩, ⟨S128x128, (broadcastInDim S128x128 ![] bcast_S_S128x128 (constant (F := Ideal) S_ .f32 0x00000000#32))⟩] concatenates_S128x128_S128x128_S128x256_d1⟩,
    ⟨S128x256, concatenate S128x256 1 [⟨S128x128, (broadcastInDim S128x128 ![] bcast_S_S128x128 (constant (F := Ideal) S_ .f32 0x00000000#32))⟩, ⟨S128x128, (m ((c : Thread nD τ).loc main_arg6))⟩] concatenates_S128x128_S128x128_S128x256_d1⟩] concatenates_S128x256_S128x256_S256x256_d0) bitsLt_bf16_f32

/-- The second layer's stacked bias column [256, 1]. -/
def t18 : FVec Ideal S256x1 .f32 :=
  shapeCast S256x1 (concatenate S256 0 [⟨S128, (m ((c : Thread nD τ).loc main_arg7))⟩, ⟨S128, (m ((c : Thread nD τ).loc main_arg8))⟩] concatenates_S128_S128_S256_d0) shapeCasts_S256_S256x1

/-- The read-out's fused weights [4, 256]. -/
def t24 : FVec Ideal S4x256 .bf16 :=
  truncf .bf16 (concatenate S4x256 0 [⟨S1x256, concatenate S1x256 1 [⟨S1x128, (m ((c : Thread nD τ).loc main_arg9))⟩, ⟨S1x128, (broadcastInDim S1x128 ![] bcast_S_S1x128 (constant (F := Ideal) S_ .f32 0x00000000#32))⟩] concatenates_S1x128_S1x128_S1x256_d1⟩,
    ⟨S3x256, concatenate S3x256 1 [⟨S3x128, (broadcastInDim S3x128 ![] bcast_S_S3x128 (constant (F := Ideal) S_ .f32 0x00000000#32))⟩, ⟨S3x128, (m ((c : Thread nD τ).loc main_arg10))⟩] concatenates_S3x128_S3x128_S3x256_d1⟩] concatenates_S1x256_S3x256_S4x256_d0) bitsLt_bf16_f32

/-- The read-out's stacked bias column [4, 1]. -/
def t26 : FVec Ideal S4x1 .f32 :=
  shapeCast S4x1 (concatenate S4 0 [⟨S1, (m ((c : Thread nD τ).loc main_arg11))⟩, ⟨S3, (m ((c : Thread nD τ).loc main_arg12))⟩] concatenates_S1_S3_S4_d0) shapeCasts_S4_S4x1

set_option maxHeartbeats 4000000 in
theorem V_v2 : (V m c main_v2 : FVec Ideal S4x262144 .bf16) = t2 m c := by
  show StableHlo.after hostOps0 (fun b => m (c, b)) (Proc.devRef .tc main_v2) = _
  after_results; rfl
set_option maxHeartbeats 4000000 in
theorem V_v8 : (V m c main_v8 : FVec Ideal S256x4 .bf16) = t8 m c := by
  show StableHlo.after hostOps0 (fun b => m (c, b)) (Proc.devRef .tc main_v8) = _
  after_results; rfl
set_option maxHeartbeats 4000000 in
theorem V_v10 : (V m c main_v10 : FVec Ideal S256x1 .f32) = t10 m c := by
  show StableHlo.after hostOps0 (fun b => m (c, b)) (Proc.devRef .tc main_v10) = _
  after_results; rfl
set_option maxHeartbeats 4000000 in
theorem V_v16 : (V m c main_v16 : FVec Ideal S256x256 .bf16) = t16 m c := by
  show StableHlo.after hostOps0 (fun b => m (c, b)) (Proc.devRef .tc main_v16) = _
  after_results; rfl
set_option maxHeartbeats 4000000 in
theorem V_v18 : (V m c main_v18 : FVec Ideal S256x1 .f32) = t18 m c := by
  show StableHlo.after hostOps0 (fun b => m (c, b)) (Proc.devRef .tc main_v18) = _
  after_results; rfl
set_option maxHeartbeats 4000000 in
theorem V_v24 : (V m c main_v24 : FVec Ideal S4x256 .bf16) = t24 m c := by
  show StableHlo.after hostOps0 (fun b => m (c, b)) (Proc.devRef .tc main_v24) = _
  after_results; rfl
set_option maxHeartbeats 4000000 in
theorem V_v26 : (V m c main_v26 : FVec Ideal S4x1 .f32) = t26 m c := by
  show StableHlo.after hostOps0 (fun b => m (c, b)) (Proc.devRef .tc main_v26) = _
  after_results; rfl

end Cert.KernelIdeal.ArraysTerm

end
-- ==== Proof.Arrays.lean ====
/-
  The seven arrays the kernel reads are the fused form of the network's parameters: the stacked input, the three
  block-diagonal weight matrices and the three stacked bias columns of the argument arrays.
-/
import proofs.«161283_j59485297049802_2_alg».proof.Proof.ArraysTerm
import proofs.«161283_j59485297049802_2_alg».proof.Proof.Fused
import proofs.«161283_j59485297049802_2_alg».proof.Proof.LibBlockDiag
import Idealize.ShloMosaic.Lib.Pipeline.Value
import Idealize.ShloMosaic.Lib.ValueIdx
import Idealize.ShloMosaic.PureOps.Ideal.Laws

noncomputable section

namespace Cert.KernelIdeal.Arrays

open Cert.KernelIdeal Cert.KernelIdeal.Gen Cert.KernelIdeal.ArraysTerm Idealize.ShloMosaic Idealize.ShloMosaic.TcCoe
open Idealize.ShloMosaic.ValueIdx Cert.Krone Cert.LibBlockDiag Idealize.SL.Sem

variable (m : (ℓ : Loc nD τ sig) → Buf (Elt Ideal) ℓ) (c : Dev nD)

/-- The argument arrays of core c, as the network's parameters. -/
def params : Params :=
  ⟨(m ((c : Thread nD τ).loc main_arg0)), (m ((c : Thread nD τ).loc main_arg1)), (m ((c : Thread nD τ).loc main_arg2)), (m ((c : Thread nD τ).loc main_arg3)), (m ((c : Thread nD τ).loc main_arg4)), (m ((c : Thread nD τ).loc main_arg5)), (m ((c : Thread nD τ).loc main_arg6)),
   (m ((c : Thread nD τ).loc main_arg7)), (m ((c : Thread nD τ).loc main_arg8)), (m ((c : Thread nD τ).loc main_arg9)), (m ((c : Thread nD τ).loc main_arg10)), (m ((c : Thread nD τ).loc main_arg11)), (m ((c : Thread nD τ).loc main_arg12))⟩

/-- A splat of the zero word is 0 at every index. -/
theorem zfill (S : Shape) (bc : S_.BroadcastsInDim S ![]) (i : S.Idx) :
    broadcastInDim S ![] bc (constant (F := Ideal) S_ .f32 0x00000000#32) i = 0 :=
  (broadcastInDim_apply ![] bc (constant (F := Ideal) S_ .f32 0x00000000#32) i ix0 (fun a => a.elim0)).trans Ideal.ofBits_zero_f32

theorem t8_eq : t8 m c = W1 (params m c) := by
  funext i
  exact congrFun (concat_bd (ra := 128) (rb := 128) (ca := 2) (cb := 2) (R := 256) (C := 4) rfl rfl (m ((c : Thread nD τ).loc main_arg1)) (m ((c : Thread nD τ).loc main_arg2)) _ _
    (fun i => zfill S128x2 bcast_S_S128x2 i) (fun i => zfill S128x2 bcast_S_S128x2 i)
    concatenates_S128x2_S128x2_S128x4_d1 concatenates_S128x2_S128x2_S128x4_d1 concatenates_S128x4_S128x4_S256x4_d0) i

theorem t16_eq : t16 m c = W2 (params m c) := by
  funext i
  exact congrFun (concat_bd (ra := 128) (rb := 128) (ca := 128) (cb := 128) (R := 256) (C := 256) rfl rfl (m ((c : Thread nD τ).loc main_arg5)) (m ((c : Thread nD τ).loc main_arg6)) _ _
    (fun i => zfill S128x128 bcast_S_S128x128 i) (fun i => zfill S128x128 bcast_S_S128x128 i)
    concatenates_S128x128_S128x128_S128x256_d1 concatenates_S128x128_S128x128_S128x256_d1 concatenates_S128x256_S128x256_S256x256_d0) i

theorem t24_eq : t24 m c = W3 (params m c) := by
  funext i
  exact congrFun (concat_bd (ra := 1) (rb := 3) (ca := 128) (cb := 128) (R := 4) (C := 256) rfl rfl (m ((c : Thread nD τ).loc main_arg9)) (m ((c : Thread nD τ).loc main_arg10)) _ _
    (fun i => zfill S1x128 bcast_S_S1x128 i) (fun i => zfill S3x128 bcast_S_S3x128 i)
    concatenates_S1x128_S1x128_S1x256_d1 concatenates_S3x128_S3x128_S3x256_d1 concatenates_S1x256_S3x256_S4x256_d0) i

theorem t10_eq : t10 m c = B1 (params m c) :=
  concat_cat (na := 128) (nb := 128) (N := 256) rfl (m ((c : Thread nD τ).loc main_arg3)) (m ((c : Thread nD τ).loc main_arg4)) concatenates_S128_S128_S256_d0 shapeCasts_S256_S256x1

theorem t18_eq : t18 m c = B2 (params m c) :=
  concat_cat (na := 128) (nb := 128) (N := 256) rfl (m ((c : Thread nD τ).loc main_arg7)) (m ((c : Thread nD τ).loc main_arg8)) concatenates_S128_S128_S256_d0 shapeCasts_S256_S256x1

theorem t26_eq : t26 m c = B3 (params m c) :=
  concat_cat (na := 1) (nb := 3) (N := 4) rfl (m ((c : Thread nD τ).loc main_arg11)) (m ((c : Thread nD τ).loc main_arg12)) concatenates_S1_S3_S4_d0 shapeCasts_S4_S4x1

/-- Row k of the stacked input at sample n is x[k / 2, n, k % 2]. -/
theorem t2_apply (k : Fin 4) (n : Fin 262144) : t2 m c (ix2 k n) = xcol (params m c) n k := by
  have hk := k.isLt
  show shapeCast S4x262144 (transpose S2x2x262144 [0, 2, 1] (m ((c : Thread nD τ).loc main_arg0)) transposes_S2x262144x2_S2x2x262144_0_2_1) shapeCasts_S2x2x262144_S4x262144 (ix2 k n) = _
  refine (shapeCast_apply _ shapeCasts_S2x2x262144_S4x262144 (ix2 k n)
    (ix3 (⟨k.val / 2, by omega⟩ : Fin 2) (⟨k.val % 2, by omega⟩ : Fin 2) n) (by
      rw [Shape.rowMajor_val_three, Shape.rowMajor_val_two]
      show (k.val / 2 * 2 + k.val % 2) * 262144 + n.val = k.val * 262144 + n.val
      omega)).trans ?_
  exact transpose_apply [0, 2, 1] (m ((c : Thread nD τ).loc main_arg0)) transposes_S2x262144x2_S2x2x262144_0_2_1
    (ix3 (⟨k.val / 2, by omega⟩ : Fin 2) (⟨k.val % 2, by omega⟩ : Fin 2) n)
    (ix3 (⟨k.val / 2, by omega⟩ : Fin 2) n (⟨k.val % 2, by omega⟩ : Fin 2)) (fun b => by
      match b with
      | ⟨0, _⟩ => rfl
      | ⟨1, _⟩ => rfl
      | ⟨2, _⟩ => rfl)

end Cert.KernelIdeal.Arrays

end
-- ==== Proof.KernelValue.lean ====
/-
  The kernel's result array.

  At grid point t the kernel holds columns 8192 t .. 8192 t + 8191 of the stacked input and the fused parameters
  whole, and stores three rows: row j, column c of its block is the network's result at sample 8192 t + c,
  component j.  The 32 blocks tile the [3, 262144] array, so after the run the array is the network's result
  component-major; the transposition after the kernel makes it sample-major.
-/
import proofs.«161283_j59485297049802_2_alg».proof.Proof.Gen.KernelIdeal.Frame
import proofs.«161283_j59485297049802_2_alg».proof.Proof.Payload
import proofs.«161283_j59485297049802_2_alg».proof.Proof.Arrays
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Payload Cert.KernelIdeal.Arrays Cert.KernelIdeal.ArraysTerm
open Idealize.ShloMosaic Idealize.ShloMosaic.TcCoe Idealize.ShloMosaic.ValueIdx Cert.Krone
open Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the input and output blocks move along the columns with the point, the
    parameter windows stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

theorem lt32 (t : Fin cfg0.N) : t.val < 32 := lt_of_lt_of_eq t.isLt N_0

/-! ## The input blocks -/

/-- Row k, column cc of the input block at point t is the stacked input of sample 8192 t + cc. -/
theorem iblk0_apply (c : Dev nD) (t : Fin cfg0.N) (k : Fin 4) (cc : Fin 8192) (hn : 8192 * t.val + cc.val < 262144) :
    (iblk m c 0 t : S4x8192.Idx → EReal) (ix2 k cc) = xcol (params m c) ⟨8192 * t.val + cc.val, hn⟩ k := by
  obtain ⟨e00, e01, e10, e11, e20, e21, e30, e31, e40, e41, e50, e51, e60, e61, e70, e71⟩ := idx_facts t
  show V m c main_v2 (((cfg0.win 0).blk t).view.emb (ix2 k cc)) = _
  have e : ((cfg0.win 0).blk t).view.emb (ix2 k cc) = ix2 k (⟨8192 * t.val + cc.val, hn⟩ : Fin 262144) := by
    funext a; apply Fin.ext
    match a with
    | ⟨0, _⟩ => show win0_0.index t (0 : Fin 2) * 4 + 1 * k.val = k.val; omega
    | ⟨1, _⟩ => show win0_0.index t (1 : Fin 2) * 8192 + 1 * cc.val = 8192 * t.val + cc.val; omega
  rw [e, V_v2]
  exact t2_apply m c k _

theorem iblk1_eq (c : Dev nD) (t : Fin cfg0.N) : (iblk m c 1 t : S256x4.Idx → EReal) = W1 (params m c) := by
  obtain ⟨e00, e01, e10, e11, e20, e21, e30, e31, e40, e41, e50, e51, e60, e61, e70, e71⟩ := idx_facts t
  funext y
  show V m c main_v8 (((cfg0.win 1).blk t).view.emb y) = _
  have e : ((cfg0.win 1).blk t).view.emb y = y := by
    funext a; apply Fin.ext
    match a with
    | ⟨0, _⟩ => show win0_1.index t (0 : Fin 2) * 256 + 1 * (y 0).val = (y 0).val; omega
    | ⟨1, _⟩ => show win0_1.index t (1 : Fin 2) * 4 + 1 * (y 1).val = (y 1).val; omega
  rw [e, V_v8, t8_eq]

theorem iblk2_eq (c : Dev nD) (t : Fin cfg0.N) : (iblk m c 2 t : S256x1.Idx → EReal) = B1 (params m c) := by
  obtain ⟨e00, e01, e10, e11, e20, e21, e30, e31, e40, e41, e50, e51, e60, e61, e70, e71⟩ := idx_facts t
  funext y
  show V m c main_v10 (((cfg0.win 2).blk t).view.emb y) = _
  have e : ((cfg0.win 2).blk t).view.emb y = y := by
    funext a; apply Fin.ext
    match a with
    | ⟨0, _⟩ => show win0_2.index t (0 : Fin 2) * 256 + 1 * (y 0).val = (y 0).val; omega
    | ⟨1, _⟩ => show win0_2.index t (1 : Fin 2) * 1 + 1 * (y 1).val = (y 1).val; omega
  rw [e, V_v10, t10_eq]

theorem iblk3_eq (c : Dev nD) (t : Fin cfg0.N) : (iblk m c 3 t : S256x256.Idx → EReal) = W2 (params m c) := by
  obtain ⟨e00, e01, e10, e11, e20, e21, e30, e31, e40, e41, e50, e51, e60, e61, e70, e71⟩ := idx_facts t
  funext y
  show V m c main_v16 (((cfg0.win 3).blk t).view.emb y) = _
  have e : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 256 + 1 * (y 1).val = (y 1).val; omega
  rw [e, V_v16, t16_eq]

theorem iblk4_eq (c : Dev nD) (t : Fin cfg0.N) : (iblk m c 4 t : S256x1.Idx → EReal) = B2 (params m c) := by
  obtain ⟨e00, e01, e10, e11, e20, e21, e30, e31, e40, e41, e50, e51, e60, e61, e70, e71⟩ := idx_facts t
  funext y
  show V m c main_v18 (((cfg0.win 4).blk t).view.emb y) = _
  have e : ((cfg0.win 4).blk t).view.emb y = y := by
    funext a; apply Fin.ext
    match a with
    | ⟨0, _⟩ => show win0_4.index t (0 : Fin 2) * 256 + 1 * (y 0).val = (y 0).val; omega
    | ⟨1, _⟩ => show win0_4.index t (1 : Fin 2) * 1 + 1 * (y 1).val = (y 1).val; omega
  rw [e, V_v18, t18_eq]

theorem iblk5_eq (c : Dev nD) (t : Fin cfg0.N) : (iblk m c 5 t : S4x256.Idx → EReal) = W3 (params m c) := by
  obtain ⟨e00, e01, e10, e11, e20, e21, e30, e31, e40, e41, e50, e51, e60, e61, e70, e71⟩ := idx_facts t
  funext y
  show V m c main_v24 (((cfg0.win 5).blk t).view.emb y) = _
  have e : ((cfg0.win 5).blk t).view.emb y = y := by
    funext a; apply Fin.ext
    match a with
    | ⟨0, _⟩ => show win0_5.index t (0 : Fin 2) * 4 + 1 * (y 0).val = (y 0).val; omega
    | ⟨1, _⟩ => show win0_5.index t (1 : Fin 2) * 256 + 1 * (y 1).val = (y 1).val; omega
  rw [e, V_v24, t24_eq]

theorem iblk6_eq (c : Dev nD) (t : Fin cfg0.N) : (iblk m c 6 t : S4x1.Idx → EReal) = B3 (params m c) := by
  obtain ⟨e00, e01, e10, e11, e20, e21, e30, e31, e40, e41, e50, e51, e60, e61, e70, e71⟩ := idx_facts t
  funext y
  show V m c main_v26 (((cfg0.win 6).blk t).view.emb y) = _
  have e : ((cfg0.win 6).blk t).view.emb y = y := by
    funext a; apply Fin.ext
    match a with
    | ⟨0, _⟩ => show win0_6.index t (0 : Fin 2) * 4 + 1 * (y 0).val = (y 0).val; omega
    | ⟨1, _⟩ => show win0_6.index t (1 : Fin 2) * 1 + 1 * (y 1).val = (y 1).val; omega
  rw [e, V_v26, t26_eq]

/-! ## One block of the output -/

/-- With the fused parameters, a column of the body's read-outs is the fused perceptron of the sample. -/
theorem qcol_eq (P : Params) (n : Fin 262144) (x0 : FVec Ideal S4x8192 .bf16) (cc : Fin 8192)
    (h0 : ∀ k : Fin 4, x0 (ix2 k cc) = xcol P n k) :
    qcol x0 (W1 P) (B1 P) (W2 P) (B2 P) (W3 P) (B3 P) cc = h3 P n := by
  unfold qcol h3 h2 h1
  rw [show (fun k => x0 (ix2 k cc)) = xcol P n from funext h0]

/-- What the body leaves in the output block at a point whose input block holds the samples from 8192 T on. -/
theorem out_of_blocks (P : Params) (T : Nat) (hT : T < 32) (x0 : FVec Ideal S4x8192 .bf16)
    (h0 : ∀ (k : Fin 4) (cc : Fin 8192), x0 (ix2 k cc) = xcol P ⟨8192 * T + cc.val, by have := cc.isLt; omega⟩ k) (y : S3x8192.Idx) :
    out0_7 (F := Ideal) x0 (W1 P) (B1 P) (W2 P) (B2 P) (W3 P) (B3 P) y
      = prob P ⟨8192 * T + (y 1).val, by have := idx2_lt1 y; omega⟩ (y 0) := by
  unfold out0_7
  simp only [View.ld_unit_zero (S := S4x8192) hz, View.ld_unit_zero (S := S256x4) hz, View.ld_unit_zero (S := S256x1) hz,
    View.ld_unit_zero (S := S256x256) hz, View.ld_unit_zero (S := S4x256) hz, View.ld_unit_zero (S := S4x1) hz]
  refine View.canon_apply_of_pieces (Val := Elt Ideal) (fun y : S3x8192.Idx => prob P ⟨8192 * T + (y 1).val, by have := idx2_lt1 y; omega⟩ (y 0)) _ ?_ y (cover0_7 _ _ _ y)
  intro p hp x
  simp only [List.mem_cons, List.mem_nil_iff, or_false] at hp
  rcases hp with rfl | rfl | rfl
  · dsimp only at x ⊢
    obtain ⟨z, cc, rfl⟩ : ∃ (z : Fin 1) (cc : Fin 8192), x = (ix2 z cc : S1x8192.Idx) := ⟨x 0, x 1, eq_ix2 x⟩
    obtain rfl : z = 0 := Subsingleton.elim _ _
    refine (store2_apply x0 _ _ _ _ _ _ cc).trans ?_
    rw [qcol_eq P ⟨8192 * T + cc.val, by have := cc.isLt; omega⟩ x0 cc (fun k => h0 k cc)]
    refine (soft_h3 P _ 2).trans ?_
    exact congrArg₂ (prob P) (Fin.ext (by show 8192 * T + cc.val = 8192 * T + (0 + 1 * cc.val); omega)) (Fin.ext rfl)
  · dsimp only at x ⊢
    obtain ⟨z, cc, rfl⟩ : ∃ (z : Fin 1) (cc : Fin 8192), x = (ix2 z cc : S1x8192.Idx) := ⟨x 0, x 1, eq_ix2 x⟩
    obtain rfl : z = 0 := Subsingleton.elim _ _
    refine (store1_apply x0 _ _ _ _ _ _ cc).trans ?_
    rw [qcol_eq P ⟨8192 * T + cc.val, by have := cc.isLt; omega⟩ x0 cc (fun k => h0 k cc)]
    refine (soft_h3 P _ 1).trans ?_
    exact congrArg₂ (prob P) (Fin.ext (by show 8192 * T + cc.val = 8192 * T + (0 + 1 * cc.val); omega)) (Fin.ext rfl)
  · dsimp only at x ⊢
    obtain ⟨z, cc, rfl⟩ : ∃ (z : Fin 1) (cc : Fin 8192), x = (ix2 z cc : S1x8192.Idx) := ⟨x 0, x 1, eq_ix2 x⟩
    obtain rfl : z = 0 := Subsingleton.elim _ _
    refine (store0_apply x0 _ _ _ _ _ _ cc).trans ?_
    rw [qcol_eq P ⟨8192 * T + cc.val, by have := cc.isLt; omega⟩ x0 cc (fun k => h0 k cc)]
    refine (soft_h3 P _ 0).trans ?_
    exact congrArg₂ (prob P) (Fin.ext (by show 8192 * T + cc.val = 8192 * T + (0 + 1 * cc.val); omega)) (Fin.ext rfl)

/-! ## From blocks to the array -/

/-- What point t writes back is block t of the component-major result. -/
theorem flushed_eq (c : Dev nD) (t : Fin cfg0.N) :
    (dats m 0 c).flushed 7 t = ((cfg0.win 7).blk t).view.read (Elt Ideal) (Gt (params m c)) := by
  have ht := lt32 t
  obtain ⟨e00, e01, e10, e11, e20, e21, e30, e31, e40, e41, e50, e51, e60, e61, e70, e71⟩ := idx_facts t
  show (cfg0.win 7).cut (grid0.coords t) ((dats m 0 c).after 7 t) = _
  rw [after0_7, iblk1_eq, iblk2_eq, iblk3_eq, iblk4_eq, iblk5_eq, iblk6_eq]
  funext y
  show out0_7 (F := Ideal) (iblk m c 0 t) (W1 (params m c)) (B1 (params m c)) (W2 (params m c)) (B2 (params m c)) (W3 (params m c)) (B3 (params m c)) y
    = Gt (params m c) (((cfg0.win 7).blk t).view.emb y)
  refine (out_of_blocks (params m c) t.val ht (iblk m c 0 t) (fun k cc => iblk0_apply m c t k cc _) y).trans ?_
  show prob (params m c) _ (y 0) = prob (params m c) ((((cfg0.win 7).blk t).view.emb y) 1) ((((cfg0.win 7).blk t).view.emb y) 0)
  have hy0 := idx2_lt0 y
  have hy1 := idx2_lt1 y
  exact congrArg₂ (prob (params m c))
    (Fin.ext (by show 8192 * t.val + (y 1).val = win0_7.index t (1 : Fin 2) * 8192 + 1 * (y 1).val; omega))
    (Fin.ext (by show (y 0).val = win0_7.index t (0 : Fin 2) * 3 + 1 * (y 0).val; omega))

/-- An index of the array is in point t's block iff each coordinate is in the block's range on its axis. -/
theorem mem_blk7 (t : Fin cfg0.N) (i : S3x262144.Idx) :
    i ∈ ((cfg0.win 7).blk t).view.set ↔ ∀ a : Fin 2, win0_7.index t a * S3x8192.size a ≤ (i a).val ∧ (i a).val < win0_7.index t a * S3x8192.size a + S3x8192.size a := by
  show i ∈ ((View.whole main_v27).slice (win0_7.rect t)).set ↔ _
  rw [View.set_slice_whole, Rect.mem_set_unit]
  exact Iff.rfl

/-- Every index of the array is in the block of the point its column selects. -/
theorem cover7 (i : S3x262144.Idx) :
    ∃ t : Fin cfg0.N, (cfg0.win 7).flush t = true ∧ i ∈ ((cfg0.win 7).blk t).view.set := by
  have h0 := idx2_lt0 i
  have h1 := idx2_lt1 i
  have hlt : (i 1).val / 8192 < cfg0.N := by
    show (i 1).val / 8192 < grid0.N
    rw [N_0]; omega
  obtain ⟨e00, e01, e10, e11, e20, e21, e30, e31, e40, e41, e50, e51, e60, e61, e70, e71⟩ := idx_facts ⟨(i 1).val / 8192, hlt⟩
  refine ⟨⟨(i 1).val / 8192, hlt⟩, flush0_7 _, ?_⟩
  rw [mem_blk7]
  intro a
  match a with
  | ⟨0, _⟩ =>
    show win0_7.index ⟨(i 1).val / 8192, hlt⟩ (0 : Fin 2) * 3 ≤ (i 0).val ∧ (i 0).val < win0_7.index ⟨(i 1).val / 8192, hlt⟩ (0 : Fin 2) * 3 + 3
    omega
  | ⟨1, _⟩ =>
    show win0_7.index ⟨(i 1).val / 8192, hlt⟩ (1 : Fin 2) * 8192 ≤ (i 1).val ∧ (i 1).val < win0_7.index ⟨(i 1).val / 8192, hlt⟩ (1 : Fin 2) * 8192 + 8192
    have e : (⟨(i 1).val / 8192, hlt⟩ : Fin cfg0.N).val = (i 1).val / 8192 := rfl
    omega

/-- The kernel's array after the run: the network's result, component-major. -/
theorem final7 (c : Dev nD) : (dats m 0 c).arrAt 7 cfg0.N = Gt (params m c) :=
  (dats m 0 c).arrAt_eq_of_cover 7 (Gt (params m c)) (fun t _ => flushed_eq m c t) cover7

/-! ## The transposition after the kernel, and the run -/

/-- The program's result: the network's result, sample-major. -/
theorem tail_eq (c : Dev nD) :
    Pipeline.afterTail₀ cfgs (dats m) 0 (V0 m) [hostOps1] c main_v28 = G (params m c) := by
  unfold Pipeline.afterTail₀
  show StableHlo.after hostOps1 _ (Proc.devRef .tc main_v28) = _
  after_results
  have e : Pipeline.withArrays (cfgs 0).spec c (V0 m c) (fun w => (dats m 0 c).arrAt w (cfgs 0).N) (Proc.tc.devRef main_v27)
      = Gt (params m c) :=
    (Pipeline.withArrays_arr spec0 launch0.win.arr_inj c _ _ 7).trans (final7 m c)
  rw [e]
  funext i
  obtain ⟨n, j, rfl⟩ : ∃ (n : Fin 262144) (j : Fin 3), i = ix2 n j := ⟨i 0, i 1, eq_ix2 i⟩
  exact transpose_apply [1, 0] (Gt (params m c)) transposes_S3x262144_S262144x3_1_0 (ix2 n j) (ix2 j n) (fun b => by
    match b with
    | ⟨0, _⟩ => rfl
    | ⟨1, _⟩ => rfl)

/-- Every weakly fair execution of the idealized kernel program ends with the network's result in its result array and
    the argument arrays unchanged. -/
theorem run : θ_run defs (onTc (τ := τ) (main (F := Ideal))) ⟨m, fun _ => 0, ρ⟩ (fun r => ∀ c : Dev nD,
      r.2.mem ((c.tc : Thread nD τ).loc main_v28) = G (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v28 (Pipeline.mem_restRefs_of main_v28 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.KValue

end
-- ==== Proof.RefValue.lean ====
/-
  The reference program computes the network of the specification.

  Each stage of the reference is read at explicit coordinates (sample n, unit o, component j) and identified with the
  corresponding layer of the specification: the two hidden layers of each branch, the two read-outs, their products,
  and the softmax of the three products.  Only commutativity and associativity of addition and of the maximum on the
  extended reals are used, together with 0 + a = a and max ⊥ a = a, so nothing is assumed about the inputs.
-/
import proofs.«161283_j59485297049802_2_alg».proof.Proof.Gen.ReferenceIdeal.Read
import proofs.«161283_j59485297049802_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Krone

/-! ## First hidden layer -/

/-- The first branch's first hidden layer: unit o at sample n. -/
theorem v14_eq (x0 : (⟨S2x262144x2, .f32⟩ : BufTy).Contents (Elt Ideal)) (x1 : (⟨S128x2, .f32⟩ : BufTy).Contents (Elt Ideal))
    (x3 : (⟨S128, .f32⟩ : BufTy).Contents (Elt Ideal)) (n : Fin 262144) (o : Fin 128) :
    val_main_v14 (F := Ideal) x0 x1 x3 (ix2 n o) = hid (fun k : Fin 2 => x0 (ix3 0 n k)) x1 x3 o := by
  rw [val_main_v14_apply, val_main_v8_apply, val_main_v5_apply, val_main_v7_apply, val_main_v6_apply,
    val_main_call0_v0_apply, val_main_call0_cst_apply]
  simp only [val_main_v1_apply, val_main_v0_apply, val_main_v4_apply]
  unfold hid
  simp only [Ideal.maximumf_def, Ideal.addf_def, Ideal.ofBits_def, Ideal.ofBits_zero_f32]
  refine congrArg₂ max (congrArg₂ (· + ·) (Finset.sum_congr rfl fun k _ =>
    congrArg₂ (· * ·) (congrArg x0 ?_) (congrArg x1 ?_)) (congrArg x3 ?_)) rfl
  · funext a; apply Fin.ext
    match a with
    | ⟨0, _⟩ => rfl
    | ⟨1, _⟩ => show (n.val * 2 + k.val) / 2 % 262144 = n.val; have := n.isLt; have := k.isLt; omega
    | ⟨2, _⟩ => show (n.val * 2 + k.val) % 2 = k.val; have := k.isLt; omega
  · funext a; apply Fin.ext
    match a with
    | ⟨0, _⟩ => rfl
    | ⟨1, _⟩ => rfl
  · funext a; apply Fin.ext
    match a with
    | ⟨0, _⟩ => rfl

/-- The second branch's first hidden layer: unit o at sample n. -/
theorem v15_eq (x0 : (⟨S2x262144x2, .f32⟩ : BufTy).Contents (Elt Ideal)) (x2 : (⟨S128x2, .f32⟩ : BufTy).Contents (Elt Ideal))
    (x4 : (⟨S128, .f32⟩ : BufTy).Contents (Elt Ideal)) (n : Fin 262144) (o : Fin 128) :
    val_main_v15 (F := Ideal) x0 x2 x4 (ix2 n o) = hid (fun k : Fin 2 => x0 (ix3 1 n k)) x2 x4 o := by
  rw [val_main_v15_apply, val_main_v13_apply, val_main_v10_apply, val_main_v12_apply, val_main_v11_apply,
    val_main_call1_v0_apply, val_main_call1_cst_apply]
  simp only [val_main_v3_apply, val_main_v2_apply, val_main_v9_apply]
  unfold hid
  simp only [Ideal.maximumf_def, Ideal.addf_def, Ideal.ofBits_def, Ideal.ofBits_zero_f32]
  refine congrArg₂ max (congrArg₂ (· + ·) (Finset.sum_congr rfl fun k _ =>
    congrArg₂ (· * ·) (congrArg x0 ?_) (congrArg x2 ?_)) (congrArg x4 ?_)) rfl
  · funext a; apply Fin.ext
    match a with
    | ⟨0, _⟩ => rfl
    | ⟨1, _⟩ => show (n.val * 2 + k.val) / 2 % 262144 = n.val; have := n.isLt; have := k.isLt; omega
    | ⟨2, _⟩ => show (n.val * 2 + k.val) % 2 = k.val; have := k.isLt; omega
  · funext a; apply Fin.ext
    match a with
    | ⟨0, _⟩ => rfl
    | ⟨1, _⟩ => rfl
  · funext a; apply Fin.ext
    match a with
    | ⟨0, _⟩ => rfl

/-! ## Second hidden layer -/

/-- The first branch's second hidden layer: unit o at sample n, over the first layer's 128 units. -/
theorem v26_eq (x0 : (⟨S2x262144x2, .f32⟩ : BufTy).Contents (Elt Ideal)) (x1 : (⟨S128x2, .f32⟩ : BufTy).Contents (Elt Ideal))
    (x3 : (⟨S128, .f32⟩ : BufTy).Contents (Elt Ideal)) (x5 : (⟨S128x128, .f32⟩ : BufTy).Contents (Elt Ideal))
    (x7 : (⟨S128, .f32⟩ : BufTy).Contents (Elt Ideal)) (n : Fin 262144) (o : Fin 128) :
    val_main_v26 (F := Ideal) x0 x1 x3 x5 x7 (ix2 n o)
      = hid (hid (fun k : Fin 2 => x0 (ix3 0 n k)) x1 x3) x5 x7 o := by
  rw [val_main_v26_apply, val_main_v20_apply, val_main_v17_apply, val_main_v19_apply, val_main_v18_apply,
    val_main_call2_v0_apply, val_main_call2_cst_apply]
  simp only [val_main_v16_apply]
  unfold hid
  simp only [Ideal.maximumf_def, Ideal.addf_def, Ideal.ofBits_def, Ideal.ofBits_zero_f32]
  refine congrArg₂ max (congrArg₂ (· + ·) (Finset.sum_congr rfl fun k _ =>
    congrArg₂ (· * ·) ((congrArg (val_main_v14 (F := Ideal) x0 x1 x3) ?_).trans (v14_eq x0 x1 x3 n k)) (congrArg x5 ?_))
    (congrArg x7 ?_)) rfl
  · funext a; apply Fin.ext
    match a with
    | ⟨0, _⟩ => rfl
    | ⟨1, _⟩ => rfl
  · funext a; apply Fin.ext
    match a with
    | ⟨0, _⟩ => rfl
    | ⟨1, _⟩ => rfl
  · funext a; apply Fin.ext
    match a with
    | ⟨0, _⟩ => rfl

/-- The second branch's second hidden layer. -/
theorem v27_eq (x0 : (⟨S2x262144x2, .f32⟩ : BufTy).Contents (Elt Ideal)) (x2 : (⟨S128x2, .f32⟩ : BufTy).Contents (Elt Ideal))
    (x4 : (⟨S128, .f32⟩ : BufTy).Contents (Elt Ideal)) (x6 : (⟨S128x128, .f32⟩ : BufTy).Contents (Elt Ideal))
    (x8 : (⟨S128, .f32⟩ : BufTy).Contents (Elt Ideal)) (n : Fin 262144) (o : Fin 128) :
    val_main_v27 (F := Ideal) x0 x2 x4 x6 x8 (ix2 n o)
      = hid (hid (fun k : Fin 2 => x0 (ix3 1 n k)) x2 x4) x6 x8 o := by
  rw [val_main_v27_apply, val_main_v25_apply, val_main_v22_apply, val_main_v24_apply, val_main_v23_apply,
    val_main_call3_v0_apply, val_main_call3_cst_apply]
  simp only [val_main_v21_apply]
  unfold hid
  simp only [Ideal.maximumf_def, Ideal.addf_def, Ideal.ofBits_def, Ideal.ofBits_zero_f32]
  refine congrArg₂ max (congrArg₂ (· + ·) (Finset.sum_congr rfl fun k _ =>
    congrArg₂ (· * ·) ((congrArg (val_main_v15 (F := Ideal) x0 x2 x4) ?_).trans (v15_eq x0 x2 x4 n k)) (congrArg x6 ?_))
    (congrArg x8 ?_)) rfl
  · funext a; apply Fin.ext
    match a with
    | ⟨0, _⟩ => rfl
    | ⟨1, _⟩ => rfl
  · funext a; apply Fin.ext
    match a with
    | ⟨0, _⟩ => rfl
    | ⟨1, _⟩ => rfl
  · funext a; apply Fin.ext
    match a with
    | ⟨0, _⟩ => rfl

/-! ## Read-outs -/

/-- The first branch's read-out (its single unit) at sample n. -/
theorem v32_eq (x0 : (⟨S2x262144x2, .f32⟩ : BufTy).Contents (Elt Ideal)) (x1 : (⟨S128x2, .f32⟩ : BufTy).Contents (Elt Ideal))
    (x3 : (⟨S128, .f32⟩ : BufTy).Contents (Elt Ideal)) (x5 : (⟨S128x128, .f32⟩ : BufTy).Contents (Elt Ideal))
    (x7 : (⟨S128, .f32⟩ : BufTy).Contents (Elt Ideal)) (x9 : (⟨S1x128, .f32⟩ : BufTy).Contents (Elt Ideal))
    (x11 : (⟨S1, .f32⟩ : BufTy).Contents (Elt Ideal)) (n : Fin 262144) :
    val_main_v32 (F := Ideal) x0 x1 x3 x5 x7 x9 x11 (ix2 n (0 : Fin 1))
      = lin (hid (hid (fun k : Fin 2 => x0 (ix3 0 n k)) x1 x3) x5 x7) x9 x11 0 := by
  rw [val_main_v32_apply, val_main_v29_apply, val_main_v31_apply, val_main_v30_apply]
  simp only [val_main_v28_apply]
  unfold lin
  simp only [Ideal.addf_def]
  refine congrArg₂ (· + ·) (Finset.sum_congr rfl fun k _ =>
    congrArg₂ (· * ·) ((congrArg (val_main_v26 (F := Ideal) x0 x1 x3 x5 x7) ?_).trans (v26_eq x0 x1 x3 x5 x7 n k))
      (congrArg x9 ?_)) (congrArg x11 ?_)
  · funext a; apply Fin.ext
    match a with
    | ⟨0, _⟩ => rfl
    | ⟨1, _⟩ => rfl
  · funext a; apply Fin.ext
    match a with
    | ⟨0, _⟩ => rfl
    | ⟨1, _⟩ => rfl
  · funext a; apply Fin.ext
    match a with
    | ⟨0, _⟩ => rfl

/-- The second branch's read-out, unit j, at sample n. -/
theorem v37_eq (x0 : (⟨S2x262144x2, .f32⟩ : BufTy).Contents (Elt Ideal)) (x2 : (⟨S128x2, .f32⟩ : BufTy).Contents (Elt Ideal))
    (x4 : (⟨S128, .f32⟩ : BufTy).Contents (Elt Ideal)) (x6 : (⟨S128x128, .f32⟩ : BufTy).Contents (Elt Ideal))
    (x8 : (⟨S128, .f32⟩ : BufTy).Contents (Elt Ideal)) (x10 : (⟨S3x128, .f32⟩ : BufTy).Contents (Elt Ideal))
    (x12 : (⟨S3, .f32⟩ : BufTy).Contents (Elt Ideal)) (n : Fin 262144) (j : Fin 3) :
    val_main_v37 (F := Ideal) x0 x2 x4 x6 x8 x10 x12 (ix2 n j)
      = lin (hid (hid (fun k : Fin 2 => x0 (ix3 1 n k)) x2 x4) x6 x8) x10 x12 j := by
  rw [val_main_v37_apply, val_main_v34_apply, val_main_v36_apply, val_main_v35_apply]
  simp only [val_main_v33_apply]
  unfold lin
  simp only [Ideal.addf_def]
  refine congrArg₂ (· + ·) (Finset.sum_congr rfl fun k _ =>
    congrArg₂ (· * ·) ((congrArg (val_main_v27 (F := Ideal) x0 x2 x4 x6 x8) ?_).trans (v27_eq x0 x2 x4 x6 x8 n k))
      (congrArg x10 ?_)) (congrArg x12 ?_)
  · funext a; apply Fin.ext
    match a with
    | ⟨0, _⟩ => rfl
    | ⟨1, _⟩ => rfl
  · funext a; apply Fin.ext
    match a with
    | ⟨0, _⟩ => rfl
    | ⟨1, _⟩ => rfl
  · funext a; apply Fin.ext
    match a with
    | ⟨0, _⟩ => rfl

/-! ## The product of the read-outs

The one-wide read-out is padded to three columns and column 0 is sliced back out: an entry of column 0 of the padded
array is an entry of the operand. -/

/-- Column 0 of the padded read-out is the read-out. -/
theorem v38_eq (x0 : (⟨S2x262144x2, .f32⟩ : BufTy).Contents (Elt Ideal)) (x1 : (⟨S128x2, .f32⟩ : BufTy).Contents (Elt Ideal))
    (x3 : (⟨S128, .f32⟩ : BufTy).Contents (Elt Ideal)) (x5 : (⟨S128x128, .f32⟩ : BufTy).Contents (Elt Ideal))
    (x7 : (⟨S128, .f32⟩ : BufTy).Contents (Elt Ideal)) (x9 : (⟨S1x128, .f32⟩ : BufTy).Contents (Elt Ideal))
    (x11 : (⟨S1, .f32⟩ : BufTy).Contents (Elt Ideal)) (n : Fin 262144) :
    val_main_v38 (F := Ideal) x0 x1 x3 x5 x7 x9 x11 (ix2 n (0 : Fin 3))
      = val_main_v32 (F := Ideal) x0 x1 x3 x5 x7 x9 x11 (ix2 n (0 : Fin 1)) := by
  unfold val_main_v38
  generalize val_main_v32 (F := Ideal) x0 x1 x3 x5 x7 x9 x11 = y
  unfold pad
  rw [dif_pos]
  · refine congrArg y ?_
    funext a; apply Fin.ext
    match a with
    | ⟨0, _⟩ => show (n.val - 0) / (0 + 1) = n.val; omega
    | ⟨1, _⟩ => show (0 - 0) / (0 + 1) = 0; omega
  · intro a
    match a with
    | ⟨0, _⟩ =>
      have := n.isLt
      exact ⟨Nat.zero_le _, (by show (n.val - 0) % (0 + 1) = 0; omega), (by show (n.val - 0) / (0 + 1) < 262144; omega)⟩
    | ⟨1, _⟩ =>
      exact ⟨Nat.zero_le _, (by show (0 - 0) % (0 + 1) = 0; omega), (by show (0 - 0) / (0 + 1) < 1; omega)⟩

/-- The product of the two read-outs at sample n, component j. -/
theorem v44_eq (x0 : (⟨S2x262144x2, .f32⟩ : BufTy).Contents (Elt Ideal)) (x1 x2 : (⟨S128x2, .f32⟩ : BufTy).Contents (Elt Ideal))
    (x3 x4 : (⟨S128, .f32⟩ : BufTy).Contents (Elt Ideal)) (x5 x6 : (⟨S128x128, .f32⟩ : BufTy).Contents (Elt Ideal))
    (x7 x8 : (⟨S128, .f32⟩ : BufTy).Contents (Elt Ideal)) (x9 : (⟨S1x128, .f32⟩ : BufTy).Contents (Elt Ideal))
    (x10 : (⟨S3x128, .f32⟩ : BufTy).Contents (Elt Ideal)) (x11 : (⟨S1, .f32⟩ : BufTy).Contents (Elt Ideal))
    (x12 : (⟨S3, .f32⟩ : BufTy).Contents (Elt Ideal)) (n : Fin 262144) (j : Fin 3) :
    val_main_v44 (F := Ideal) x0 x1 x2 x3 x4 x5 x6 x7 x8 x9 x10 x11 x12 (ix2 n j)
      = lin (hid (hid (fun k : Fin 2 => x0 (ix3 0 n k)) x1 x3) x5 x7) x9 x11 0
        * lin (hid (hid (fun k : Fin 2 => x0 (ix3 1 n k)) x2 x4) x6 x8) x10 x12 j := by
  rw [val_main_v44_apply, val_main_v43_apply, val_main_v42_apply, val_main_v40_apply, val_main_v39_apply,
    val_main_v41_apply]
  simp only [Ideal.mulf_def]
  refine congrArg₂ (· * ·)
    ((congrArg (val_main_v38 (F := Ideal) x0 x1 x3 x5 x7 x9 x11) ?_).trans
      ((v38_eq x0 x1 x3 x5 x7 x9 x11 n).trans (v32_eq x0 x1 x3 x5 x7 x9 x11 n)))
    ((congrArg (val_main_v37 (F := Ideal) x0 x2 x4 x6 x8 x10 x12) ?_).trans (v37_eq x0 x2 x4 x6 x8 x10 x12 n j))
  · funext a; apply Fin.ext
    match a with
    | ⟨0, _⟩ => show (n.val * 3 + j.val) / 3 = n.val; have := j.isLt; omega
    | ⟨1, _⟩ => rfl
  · funext a; apply Fin.ext
    match a with
    | ⟨0, _⟩ => show (n.val * 3 + j.val) / 3 = n.val; have := j.isLt; omega
    | ⟨1, _⟩ => show (n.val * 3 + j.val) % 3 = j.val; have := j.isLt; omega

/-! ## The maximum of the three products -/

/-- A fold of a commutative, associative operation over three values, joined to the initial value. -/
theorem fold_univ_fin3 {α : Type} (f : α → α → α) [Std.Commutative f] [Std.Associative f] (b : α) (g : Fin 3 → α) :
    (Finset.univ : Finset (Fin 3)).fold f b g = f b (f (f (g 0) (g 1)) (g 2)) := by
  simp only [Fin.univ_succ, Finset.fold_cons, Finset.fold_map, Finset.univ_unique, Finset.fold_singleton]
  show f (g 0) (f (g 1) (f (g 2) b)) = _
  ac_rfl

/-- Sample n with component k put back is (n, k). -/
theorem lift_ix2 (h : S262144x3.Reduces [1] S262144) (n : Fin 262144) (k : Fin (S262144x3.size 1)) :
    h.lift (ix1 n) k = ix2 n (⟨k.val, k.isLt⟩ : Fin 3) := by
  funext c; apply Fin.ext
  fin_cases c <;> rfl

/-- The reduction by maximum from minus infinity, at sample n, is the maximum of the three entries of row n. -/
theorem v45_eq (x0 : (⟨S2x262144x2, .f32⟩ : BufTy).Contents (Elt Ideal)) (x1 x2 : (⟨S128x2, .f32⟩ : BufTy).Contents (Elt Ideal))
    (x3 x4 : (⟨S128, .f32⟩ : BufTy).Contents (Elt Ideal)) (x5 x6 : (⟨S128x128, .f32⟩ : BufTy).Contents (Elt Ideal))
    (x7 x8 : (⟨S128, .f32⟩ : BufTy).Contents (Elt Ideal)) (x9 : (⟨S1x128, .f32⟩ : BufTy).Contents (Elt Ideal))
    (x10 : (⟨S3x128, .f32⟩ : BufTy).Contents (Elt Ideal)) (x11 : (⟨S1, .f32⟩ : BufTy).Contents (Elt Ideal))
    (x12 : (⟨S3, .f32⟩ : BufTy).Contents (Elt Ideal)) (n : Fin 262144) :
    val_main_v45 (F := Ideal) x0 x1 x2 x3 x4 x5 x6 x7 x8 x9 x10 x11 x12 (ix1 n)
      = max (max (val_main_v44 (F := Ideal) x0 x1 x2 x3 x4 x5 x6 x7 x8 x9 x10 x11 x12 (ix2 n 0)) (val_main_v44 (F := Ideal) x0 x1 x2 x3 x4 x5 x6 x7 x8 x9 x10 x11 x12 (ix2 n 1)))
          (val_main_v44 (F := Ideal) x0 x1 x2 x3 x4 x5 x6 x7 x8 x9 x10 x11 x12 (ix2 n 2)) := by
  unfold val_main_v45
  generalize val_main_v44 (F := Ideal) x0 x1 x2 x3 x4 x5 x6 x7 x8 x9 x10 x11 x12 = y
  have h : S262144x3.Reduces [1] S262144 := by decide
  rw [Host.reduce_eq_fold_single (α := Ideal .f32) (s := S262144x3) (t := S262144) (a := 1)
    (FloatOps.maximumf (F := Ideal) (φ := .f32)) y (val_main_cst (F := Ideal)) reducesTo_S262144x3_S262144_d1 h h_S_ (ix1 n)]
  have e := fold_univ_fin3 (max : Ideal .f32 → Ideal .f32 → Ideal .f32) (Ideal.ofBits .f32 0xFF800000#32)
    (fun k : Fin 3 => y (ix2 n k))
  have hb : max (Ideal.ofBits .f32 0xFF800000#32) = (id : Ideal .f32 → Ideal .f32) := by
    funext z; show max (Ideal.ofBits .f32 0xFF800000#32) z = z; simp [Ideal.ofBits, Ideal.ieee]
  rw [hb] at e
  refine Eq.trans ?_ e
  have hf : (y ∘ h.lift (ix1 n)) = fun k : Fin 3 => y (ix2 n k) := funext fun k => congrArg y (lift_ix2 h n k)
  exact congrArg (fun f => Finset.fold max (Ideal.ofBits .f32 0xFF800000#32) f (Finset.univ : Finset (Fin 3))) hf

/-! ## The softmax -/

/-- Minus infinity is neutral for the maximum. -/
theorem max_neg_inf (z : Ideal .f32) : max (Ideal.ofBits .f32 0xFF800000#32) z = z := by
  simp [Ideal.ofBits, Ideal.ieee]

/-- An entry minus the largest entry of its row. -/
theorem v50_eq (x0 : (⟨S2x262144x2, .f32⟩ : BufTy).Contents (Elt Ideal)) (x1 x2 : (⟨S128x2, .f32⟩ : BufTy).Contents (Elt Ideal))
    (x3 x4 : (⟨S128, .f32⟩ : BufTy).Contents (Elt Ideal)) (x5 x6 : (⟨S128x128, .f32⟩ : BufTy).Contents (Elt Ideal))
    (x7 x8 : (⟨S128, .f32⟩ : BufTy).Contents (Elt Ideal)) (x9 : (⟨S1x128, .f32⟩ : BufTy).Contents (Elt Ideal))
    (x10 : (⟨S3x128, .f32⟩ : BufTy).Contents (Elt Ideal)) (x11 : (⟨S1, .f32⟩ : BufTy).Contents (Elt Ideal))
    (x12 : (⟨S3, .f32⟩ : BufTy).Contents (Elt Ideal)) (n : Fin 262144) (j : Fin 3) :
    val_main_v50 (F := Ideal) x0 x1 x2 x3 x4 x5 x6 x7 x8 x9 x10 x11 x12 (ix2 n j)
      = val_main_v44 (F := Ideal) x0 x1 x2 x3 x4 x5 x6 x7 x8 x9 x10 x11 x12 (ix2 n j)
        - max (max (val_main_v44 (F := Ideal) x0 x1 x2 x3 x4 x5 x6 x7 x8 x9 x10 x11 x12 (ix2 n 0)) (val_main_v44 (F := Ideal) x0 x1 x2 x3 x4 x5 x6 x7 x8 x9 x10 x11 x12 (ix2 n 1))) (val_main_v44 (F := Ideal) x0 x1 x2 x3 x4 x5 x6 x7 x8 x9 x10 x11 x12 (ix2 n 2)) := by
  rw [val_main_v50_apply, val_main_v49_apply, val_main_v48_apply, val_main_v47_apply, val_main_v46_apply,
    val_main_cst_0_apply]
  have hi : idx_main_v48 (idx_main_v49 (ix2 n j)) = ix1 n := by
    funext a; apply Fin.ext
    match a with
    | ⟨0, _⟩ => rfl
  rw [hi, v45_eq]
  simp only [Ideal.subf_def, Ideal.maximumf_def, Ideal.ofBits_def]
  rw [max_neg_inf]

/-- The sum of the three exponentials of row n, added left to right. -/
theorem v52_eq (x0 : (⟨S2x262144x2, .f32⟩ : BufTy).Contents (Elt Ideal)) (x1 x2 : (⟨S128x2, .f32⟩ : BufTy).Contents (Elt Ideal))
    (x3 x4 : (⟨S128, .f32⟩ : BufTy).Contents (Elt Ideal)) (x5 x6 : (⟨S128x128, .f32⟩ : BufTy).Contents (Elt Ideal))
    (x7 x8 : (⟨S128, .f32⟩ : BufTy).Contents (Elt Ideal)) (x9 : (⟨S1x128, .f32⟩ : BufTy).Contents (Elt Ideal))
    (x10 : (⟨S3x128, .f32⟩ : BufTy).Contents (Elt Ideal)) (x11 : (⟨S1, .f32⟩ : BufTy).Contents (Elt Ideal))
    (x12 : (⟨S3, .f32⟩ : BufTy).Contents (Elt Ideal)) (n : Fin 262144) :
    val_main_v52 (F := Ideal) x0 x1 x2 x3 x4 x5 x6 x7 x8 x9 x10 x11 x12 (ix1 n)
      = (Ideal.exp (val_main_v44 (F := Ideal) x0 x1 x2 x3 x4 x5 x6 x7 x8 x9 x10 x11 x12 (ix2 n 0) - max (max (val_main_v44 (F := Ideal) x0 x1 x2 x3 x4 x5 x6 x7 x8 x9 x10 x11 x12 (ix2 n 0)) (val_main_v44 (F := Ideal) x0 x1 x2 x3 x4 x5 x6 x7 x8 x9 x10 x11 x12 (ix2 n 1))) (val_main_v44 (F := Ideal) x0 x1 x2 x3 x4 x5 x6 x7 x8 x9 x10 x11 x12 (ix2 n 2)))
          + Ideal.exp (val_main_v44 (F := Ideal) x0 x1 x2 x3 x4 x5 x6 x7 x8 x9 x10 x11 x12 (ix2 n 1) - max (max (val_main_v44 (F := Ideal) x0 x1 x2 x3 x4 x5 x6 x7 x8 x9 x10 x11 x12 (ix2 n 0)) (val_main_v44 (F := Ideal) x0 x1 x2 x3 x4 x5 x6 x7 x8 x9 x10 x11 x12 (ix2 n 1))) (val_main_v44 (F := Ideal) x0 x1 x2 x3 x4 x5 x6 x7 x8 x9 x10 x11 x12 (ix2 n 2))))
        + Ideal.exp (val_main_v44 (F := Ideal) x0 x1 x2 x3 x4 x5 x6 x7 x8 x9 x10 x11 x12 (ix2 n 2) - max (max (val_main_v44 (F := Ideal) x0 x1 x2 x3 x4 x5 x6 x7 x8 x9 x10 x11 x12 (ix2 n 0)) (val_main_v44 (F := Ideal) x0 x1 x2 x3 x4 x5 x6 x7 x8 x9 x10 x11 x12 (ix2 n 1))) (val_main_v44 (F := Ideal) x0 x1 x2 x3 x4 x5 x6 x7 x8 x9 x10 x11 x12 (ix2 n 2))) := by
  rw [val_main_v52_apply, val_main_cst_1_apply]
  simp only [Ideal.ofBits_def, Ideal.ofBits_zero_f32, zero_add, Fin.sum_univ_three, val_main_v51_apply,
    Ideal.hostUnary_exp_def]
  have h0 : idx_main_v52 (ix1 n) 0 = ix2 n (0 : Fin 3) := by
    funext a; apply Fin.ext
    match a with
    | ⟨0, _⟩ => rfl
    | ⟨1, _⟩ => rfl
  have h1 : idx_main_v52 (ix1 n) 1 = ix2 n (1 : Fin 3) := by
    funext a; apply Fin.ext
    match a with
    | ⟨0, _⟩ => rfl
    | ⟨1, _⟩ => rfl
  have h2 : idx_main_v52 (ix1 n) 2 = ix2 n (2 : Fin 3) := by
    funext a; apply Fin.ext
    match a with
    | ⟨0, _⟩ => rfl
    | ⟨1, _⟩ => rfl
  rw [h0, h1, h2, v50_eq, v50_eq, v50_eq]

/-- The result at sample n, component j: the softmax of the three products of row n. -/
theorem v55_eq (x0 : (⟨S2x262144x2, .f32⟩ : BufTy).Contents (Elt Ideal)) (x1 x2 : (⟨S128x2, .f32⟩ : BufTy).Contents (Elt Ideal))
    (x3 x4 : (⟨S128, .f32⟩ : BufTy).Contents (Elt Ideal)) (x5 x6 : (⟨S128x128, .f32⟩ : BufTy).Contents (Elt Ideal))
    (x7 x8 : (⟨S128, .f32⟩ : BufTy).Contents (Elt Ideal)) (x9 : (⟨S1x128, .f32⟩ : BufTy).Contents (Elt Ideal))
    (x10 : (⟨S3x128, .f32⟩ : BufTy).Contents (Elt Ideal)) (x11 : (⟨S1, .f32⟩ : BufTy).Contents (Elt Ideal))
    (x12 : (⟨S3, .f32⟩ : BufTy).Contents (Elt Ideal)) (n : Fin 262144) (j : Fin 3) :
    val_main_v55 (F := Ideal) x0 x1 x2 x3 x4 x5 x6 x7 x8 x9 x10 x11 x12 (ix2 n j)
      = soft (val_main_v44 (F := Ideal) x0 x1 x2 x3 x4 x5 x6 x7 x8 x9 x10 x11 x12 (ix2 n 0)) (val_main_v44 (F := Ideal) x0 x1 x2 x3 x4 x5 x6 x7 x8 x9 x10 x11 x12 (ix2 n 1)) (val_main_v44 (F := Ideal) x0 x1 x2 x3 x4 x5 x6 x7 x8 x9 x10 x11 x12 (ix2 n 2)) j := by
  rw [val_main_v55_apply, val_main_v54_apply, val_main_v53_apply, val_main_v51_apply]
  have hi : idx_main_v53 (idx_main_v54 (ix2 n j)) = ix1 n := by
    funext a; apply Fin.ext
    match a with
    | ⟨0, _⟩ => rfl
  rw [hi, v52_eq, v50_eq]
  simp only [Ideal.hostDivf_def, Ideal.hostUnary_exp_def]
  unfold soft
  have hj : val_main_v44 (F := Ideal) x0 x1 x2 x3 x4 x5 x6 x7 x8 x9 x10 x11 x12 (ix2 n j)
      = ![val_main_v44 (F := Ideal) x0 x1 x2 x3 x4 x5 x6 x7 x8 x9 x10 x11 x12 (ix2 n 0), val_main_v44 (F := Ideal) x0 x1 x2 x3 x4 x5 x6 x7 x8 x9 x10 x11 x12 (ix2 n 1), val_main_v44 (F := Ideal) x0 x1 x2 x3 x4 x5 x6 x7 x8 x9 x10 x11 x12 (ix2 n 2)] j := by
    fin_cases j <;> rfl
  rw [← hj]

/-! ## The reference is the specification -/

/-- The reference's result is the specified network of the thirteen argument arrays. -/
theorem ref_eq (x0 : (⟨S2x262144x2, .f32⟩ : BufTy).Contents (Elt Ideal)) (x1 x2 : (⟨S128x2, .f32⟩ : BufTy).Contents (Elt Ideal))
    (x3 x4 : (⟨S128, .f32⟩ : BufTy).Contents (Elt Ideal)) (x5 x6 : (⟨S128x128, .f32⟩ : BufTy).Contents (Elt Ideal))
    (x7 x8 : (⟨S128, .f32⟩ : BufTy).Contents (Elt Ideal)) (x9 : (⟨S1x128, .f32⟩ : BufTy).Contents (Elt Ideal))
    (x10 : (⟨S3x128, .f32⟩ : BufTy).Contents (Elt Ideal)) (x11 : (⟨S1, .f32⟩ : BufTy).Contents (Elt Ideal))
    (x12 : (⟨S3, .f32⟩ : BufTy).Contents (Elt Ideal)) :
    val_main_v55 (F := Ideal) x0 x1 x2 x3 x4 x5 x6 x7 x8 x9 x10 x11 x12
      = Cert.Krone.G ⟨x0, x1, x2, x3, x4, x5, x6, x7, x8, x9, x10, x11, x12⟩ := by
  funext i
  obtain ⟨n, j, rfl⟩ : ∃ (n : Fin 262144) (j : Fin 3), i = ix2 n j := ⟨i 0, i 1, eq_ix2 i⟩
  rw [v55_eq]
  simp only [v44_eq]
  rfl

end Cert.ReferenceIdeal.RefValue

end
-- ==== Proof.lean ====
/-
  The five claims.

  Both idealized programs compute, over the extended reals, one function of the thirteen argument arrays: two
  three-layer perceptrons (hidden layers of 128 rectified units; read-outs of one and of three units) applied to the two
  2-vectors of each sample, the 1 x 3 Kronecker product of the read-outs, and its softmax.  The reference computes it
  branch by branch, sample-major.  The kernel computes it feature-major with the two branches fused into one perceptron
  whose weight matrices are block diagonal; a product with an entry of a zero block is 0 on the extended reals whatever
  the other factor, so the fused sums are the branches' sums, and no finiteness of the inputs is used.  The word-level
  kernel and the idealized kernel have generated frames; the reference's frame is its run with the result dropped; the
  ideal pass rewrote nothing, so the idealization claim is trivial.
-/
import proofs.«161283_j59485297049802_2_alg».proof.Defs
import proofs.«161283_j59485297049802_2_alg».proof.Proof.Gen.Kernel
import proofs.«161283_j59485297049802_2_alg».proof.Proof.Gen.Kernel.Skeleton
import proofs.«161283_j59485297049802_2_alg».proof.Proof.Gen.Kernel.Launch
import proofs.«161283_j59485297049802_2_alg».proof.Proof.Gen.Kernel.Points
import proofs.«161283_j59485297049802_2_alg».proof.Proof.Gen.Kernel.Frame
import proofs.«161283_j59485297049802_2_alg».proof.Proof.Gen.KernelIdeal
import proofs.«161283_j59485297049802_2_alg».proof.Proof.Gen.KernelIdeal.Skeleton
import proofs.«161283_j59485297049802_2_alg».proof.Proof.Gen.KernelIdeal.Launch
import proofs.«161283_j59485297049802_2_alg».proof.Proof.Gen.KernelIdeal.Points
import proofs.«161283_j59485297049802_2_alg».proof.Proof.Gen.KernelIdeal.Frame
import proofs.«161283_j59485297049802_2_alg».proof.Proof.Gen.ReferenceIdeal
import proofs.«161283_j59485297049802_2_alg».proof.Proof.Gen.Pre_finite_inputs
import proofs.«161283_j59485297049802_2_alg».proof.Proof.Gen.ReferenceIdeal.Run
import proofs.«161283_j59485297049802_2_alg».proof.Proof.Gen.ReferenceIdeal.Read
import proofs.«161283_j59485297049802_2_alg».proof.Proof.KernelValue
import proofs.«161283_j59485297049802_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array and the reference's both end at the network's
    result of the kernel's arguments. -/
theorem algebraic : Cert.algebraic_KernelIdeal_ReferenceIdeal := by
  intro m ρ m' ρ' _ hagree
  refine ⟨fun c => Cert.Krone.G (Cert.KernelIdeal.Arrays.params m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v55_eq, Cert.ReferenceIdeal.RefValue.ref_eq, h0, h1, h2, h3, h4, h5, h6, h7, h8, h9, h10, h11, h12]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
